-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S16x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x1600000 32) (main_arg2 : FVec F S1600000x16 .f32) (main_arg3 : FVec F S32x128 .f32) (main_arg4 : FVec F S128 .f32) (main_arg5 : FVec F S16x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x32 : Shape := ⟨2, ![5000, 32]⟩
abbrev S5000x128 : Shape := ⟨2, ![5000, 128]⟩
abbrev S100000x1 : Shape := ⟨2, ![100000, 1]⟩
abbrev S1700000x128 : Shape := ⟨2, ![1700000, 128]⟩
abbrev S5000x1 : Shape := ⟨2, ![5000, 1]⟩

abbrev nBuf : Space → Nat
  | .hbm => 81
  | .vmem => 30
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x16, .f32⟩
  | .hbm, ⟨3, _⟩ => ⟨S32x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .bf16⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .bf16⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S100000x1, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .bf16⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .bf16⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S100000x1, .f32⟩
  | .hbm, ⟨79, _⟩ => ⟨S1x128, .f32⟩
  | .hbm, ⟨80, _⟩ => ⟨S100000x128, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  scatter_S100000_S1700000x1_S1700000_n_0_0_1_wf : ScatterDims.WF S100000 S1700000x1 S1700000 [] [0] [0] 1
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1600000x128 : Shape := ⟨2, ![1600000, 128]⟩
abbrev S1700000x128 : Shape := ⟨2, ![1700000, 128]⟩

abbrev nBuf : Space → Nat
  | .hbm => 127
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x16, .f32⟩
  | .hbm, ⟨3, _⟩ => ⟨S32x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S1600000x128, .f32⟩
  | .hbm, ⟨40, _⟩ => ⟨S1x128, .f32⟩
  | .hbm, ⟨41, _⟩ => ⟨S1600000x128, .f32⟩
  | .hbm, ⟨42, _⟩ => ⟨S1600000x128, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S1700000, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S1700000x1, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x128, .f32⟩
  | .hbm, ⟨115, _⟩ => ⟨S1700000x128, .f32⟩
  | .hbm, ⟨116, _⟩ => ⟨S1700000x128, .f32⟩
  | .hbm, ⟨117, _⟩ => ⟨S_, .f32⟩
  | .hbm, ⟨118, _⟩ => ⟨S100000x128, .f32⟩
  | .hbm, ⟨119, _⟩ => ⟨S1700000x1, .i32⟩
  | .hbm, ⟨120, _⟩ => ⟨S100000x128, .f32⟩
  | .hbm, ⟨121, _⟩ => ⟨S1x128, .f32⟩
  | .hbm, ⟨122, _⟩ => ⟨S100000x128, .f32⟩
  | .hbm, ⟨123, _⟩ => ⟨S100000x128, .f32⟩
  | .hbm, ⟨124, _⟩ => ⟨S_, .f32⟩
  | .hbm, ⟨125, _⟩ => ⟨S100000x128, .f32⟩
  | .hbm, ⟨126, _⟩ => ⟨S100000x128, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_14 : Ref sig .tc := ⟨.hbm, 106, rfl⟩
abbrev main_v75 : Ref sig .tc := ⟨.hbm, 107, rfl⟩
abbrev main_v76 : Ref sig .tc := ⟨.hbm, 108, rfl⟩
abbrev main_c_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call2_cst : Ref sig .tc := ⟨.hbm, 124, rfl⟩
abbrev main_call2_v0 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  dot_S100000x32_S32x128_S100000x128_1_0_0_1_n_n_wf : DotDims.WF S100000x32 S32x128 S100000x128 [1] [0] [0] [1] [] []
  dot_S1600000x16_S16x128_S1600000x128_1_0_0_1_n_n_wf : DotDims.WF S1600000x16 S16x128 S1600000x128 [1] [0] [0] [1] [] []
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The mathematics both programs compute, stated once over literal shapes.

  A graph-convolution layer on 100000 nodes with 128 features.  Every node carries a weight
  `d j` (the inverse square root of its degree).  Messages are rows of `h · W`; a message
  travelling along an edge `r → j` is scaled by `d r · d j`, and node `j` adds up the messages
  it receives, adds a bias and clamps at zero.  One program scales each message by the product
  `d r · d j` before adding; the other scales rows by `d r` before they are sent and multiplies
  the finished sum by `d j`.  The two agree because `d j` is a nonnegative real number, and
  multiplication by a nonnegative real distributes over every sum of extended reals, infinite
  summands included (`sum_mul_of_nonneg_of_ne_top`).

  The dense pieces are plain matrix products: `linear` (a product plus a row of biases),
  `proj` (a product), and `scaleBiasRelu` (the finishing step of a layer).
-/
import Idealize.ShloMosaic.PureOps.Ideal
import Idealize.ShloMosaic.Lib.ValueIdx

noncomputable section

open scoped BigOperators

namespace Cert.Gcn

open Idealize.ShloMosaic Idealize.ShloMosaic.ValueIdx

/-- `x · W + b`: entry `(r, n)` is the sum over `k` of `x (r, k) · W (k, n)`, plus `b (0, n)`. -/
def linear (x : (⟨2, ![100000, 32]⟩ : Shape).Idx → EReal) (W : (⟨2, ![32, 128]⟩ : Shape).Idx → EReal)
    (b : (⟨2, ![1, 128]⟩ : Shape).Idx → EReal) : (⟨2, ![100000, 128]⟩ : Shape).Idx → EReal :=
  fun i => (∑ k : Fin 32, x (ix2 (i 0) k) * W (ix2 k (i 1))) + b (ix2 (0 : Fin 1) (i 1))

/-- `h · W`: entry `(r, n)` is the sum over `k` of `h (r, k) · W (k, n)`. -/
def proj (h : (⟨2, ![100000, 128]⟩ : Shape).Idx → EReal) (W : (⟨2, ![128, 128]⟩ : Shape).Idx → EReal) :
    (⟨2, ![100000, 128]⟩ : Shape).Idx → EReal :=
  fun i => ∑ k : Fin 128, h (ix2 (i 0) k) * W (ix2 k (i 1))

/-- The finishing step of a layer: entry `(r, n)` is `max (agg (r, n) · d (r, 0) + b (0, n)) 0`. -/
def scaleBiasRelu (agg : (⟨2, ![100000, 128]⟩ : Shape).Idx → EReal) (d : (⟨2, ![100000, 1]⟩ : Shape).Idx → EReal)
    (b : (⟨2, ![1, 128]⟩ : Shape).Idx → EReal) : (⟨2, ![100000, 128]⟩ : Shape).Idx → EReal :=
  fun i => max (agg i * d (ix2 (i 0) (0 : Fin 1)) + b (ix2 (0 : Fin 1) (i 1))) 0

/-- A nonnegative extended real other than `⊤` may be multiplied into a finite sum of extended reals term by
    term: `(∑ f) · x = ∑ (f · x)`.  (For a general factor this fails: `(1 + (-1)) · ⊤ = 0` but
    `1 · ⊤ + (-1) · ⊤ = ⊥`.) -/
theorem sum_mul_of_nonneg_of_ne_top {ι : Type*} (s : Finset ι) (f : ι → EReal) {x : EReal} (h0 : 0 ≤ x) (htop : x ≠ ⊤) :
    (∑ j ∈ s, f j) * x = ∑ j ∈ s, f j * x := by
  classical
  induction s using Finset.induction_on with
  | empty => simp
  | insert a s ha ih =>
    rw [Finset.sum_insert ha, Finset.sum_insert ha, EReal.right_distrib_of_nonneg_of_ne_top h0 htop, ih]

end Cert.Gcn

end
-- ==== Proof.Index.lean ====
/-
  Index-level reads of the two shape operations both programs use, over literal shapes, and a few small facts
  about 32-bit words and extended reals.

  A gather of rows of a [100000, 128] array (or of entries of a [100000] array) at a column [1700000, 1] of start
  words reads, at result position (e, c), the operand at row `nodeOf (idx (e, 0))` — the start word read signed and
  clamped into [0, 99999] — and column c.  A scatter-add of 1700000 rows of 128 into a [100000, 128] array sends
  update (e, c) to (r, c) exactly when the start word of e, read signed and not clamped, is r.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The node a 32-bit start word names: read signed, clamped into [0, 99999] (negative words to node 0). -/
def nodeOf (v : BitVec 32) : Fin 100000 := ⟨min v.toInt.toNat 99999, by omega⟩

/-- The dimension numbers of the row gather: operand [100000, 128], start words [1700000, 1], result [1700000, 128];
    axis 0 of the operand is collapsed and indexed by the start word, axis 1 is copied whole. -/
abbrev rowGatherDims (wf : GatherDims.WF ⟨2, ![100000, 128]⟩ ⟨2, ![1700000, 1]⟩ ⟨2, ![1700000, 128]⟩ [1] [0] [] [0] [] 1 ![1, 128]) :
    GatherDims ⟨2, ![100000, 128]⟩ ⟨2, ![1700000, 1]⟩ ⟨2, ![1700000, 128]⟩ where
  offsetDims := [1]
  collapsedSliceDims := [0]
  operandBatchingDims := []
  startIndicesBatchingDims := []
  startIndexMap := [0]
  indexVectorDim := 1
  sliceSizes := ![1, 128]
  wf := wf

/-- The dimension numbers of the entry gather: operand [100000], start words [1700000, 1], result [1700000]. -/
abbrev nodeGatherDims (wf : GatherDims.WF ⟨1, ![100000]⟩ ⟨2, ![1700000, 1]⟩ ⟨1, ![1700000]⟩ [] [0] [] [0] [] 1 ![1]) :
    GatherDims ⟨1, ![100000]⟩ ⟨2, ![1700000, 1]⟩ ⟨1, ![1700000]⟩ where
  offsetDims := []
  collapsedSliceDims := [0]
  operandBatchingDims := []
  startIndicesBatchingDims := []
  startIndexMap := [0]
  indexVectorDim := 1
  sliceSizes := ![1]
  wf := wf

/-- The dimension numbers of the row scatter: operand [100000, 128], start words [1700000, 1], updates [1700000, 128]. -/
abbrev rowScatterDims (wf : ScatterDims.WF ⟨2, ![100000, 128]⟩ ⟨2, ![1700000, 1]⟩ ⟨2, ![1700000, 128]⟩ [1] [0] [0] 1) :
    ScatterDims ⟨2, ![100000, 128]⟩ ⟨2, ![1700000, 1]⟩ ⟨2, ![1700000, 128]⟩ where
  updateWindowDims := [1]
  insertedWindowDims := [0]
  scatterDimsToOperandDims := [0]
  indexVectorDim := 1
  wf := wf

/-- THE ROW GATHER READ AT (e, c): the operand at the node the start word of e names, column c. -/
theorem rowGather_apply {α : Type}
    (wf : GatherDims.WF ⟨2, ![100000, 128]⟩ ⟨2, ![1700000, 1]⟩ ⟨2, ![1700000, 128]⟩ [1] [0] [] [0] [] 1 ![1, 128])
    (x : (⟨2, ![100000, 128]⟩ : Shape).Idx → α) (idx : IVec ⟨2, ![1700000, 1]⟩ 32)
    (j : (⟨2, ![1700000, 128]⟩ : Shape).Idx) :
    Host.gather (rowGatherDims wf) x idx j = x (ix2 (nodeOf (idx (ix2 (j 0) (0 : Fin 1)))) (j 1)) := by
  unfold Host.gather
  congr 1
  funext a
  refine Fin.ext ?_
  match a with
  | ⟨0, _⟩ =>
    show (rowGatherDims wf).start j idx 0 + (rowGatherDims wf).batchCoord j 0 + (rowGatherDims wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims wf).startIndexMap from List.mem_singleton.mpr rfl)]
    have hsi : (rowGatherDims wf).siIdx j ⟨List.idxOf (0 : Fin 2) (rowGatherDims wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (rowGatherDims wf).start j idx 1 + (rowGatherDims wf).batchCoord j 1 + (rowGatherDims wf).offCoord j 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- THE ENTRY GATHER READ AT e: the operand at the node the start word of e names. -/
theorem nodeGather_apply {α : Type}
    (wf : GatherDims.WF ⟨1, ![100000]⟩ ⟨2, ![1700000, 1]⟩ ⟨1, ![1700000]⟩ [] [0] [] [0] [] 1 ![1])
    (x : (⟨1, ![100000]⟩ : Shape).Idx → α) (idx : IVec ⟨2, ![1700000, 1]⟩ 32)
    (j : (⟨1, ![1700000]⟩ : Shape).Idx) :
    Host.gather (nodeGatherDims wf) x idx j = x (ix1 (nodeOf (idx (ix2 (j 0) (0 : Fin 1))))) := by
  unfold Host.gather
  congr 1
  funext a
  obtain rfl : a = 0 := Subsingleton.elim _ _
  refine Fin.ext ?_
  show (nodeGatherDims wf).start j idx 0 + (nodeGatherDims wf).batchCoord j 0 + (nodeGatherDims wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (nodeGatherDims wf).startIndexMap from List.mem_singleton.mpr rfl)]
  have hsi : (nodeGatherDims wf).siIdx j ⟨List.idxOf (0 : Fin 1) (nodeGatherDims wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The start of update row e on operand axis 0 is its start word read signed. -/
theorem rowScatter_start0 (wf : ScatterDims.WF ⟨2, ![100000, 128]⟩ ⟨2, ![1700000, 1]⟩ ⟨2, ![1700000, 128]⟩ [1] [0] [0] 1)
    (idx : IVec ⟨2, ![1700000, 1]⟩ 32) (j : (⟨2, ![1700000, 128]⟩ : Shape).Idx) :
    (rowScatterDims wf).start j idx 0 = (idx (ix2 (j 0) (0 : Fin 1))).toInt := by
  unfold ScatterDims.start
  rw [dif_pos (show (0 : Fin 2) ∈ (rowScatterDims wf).scatterDimsToOperandDims from List.mem_singleton.mpr rfl)]
  have hsi : (rowScatterDims wf).siIdx j ⟨List.idxOf (0 : Fin 2) (rowScatterDims wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Axis 1 of the operand is not named by the start word: its start is 0. -/
theorem rowScatter_start1 (wf : ScatterDims.WF ⟨2, ![100000, 128]⟩ ⟨2, ![1700000, 1]⟩ ⟨2, ![1700000, 128]⟩ [1] [0] [0] 1)
    (idx : IVec ⟨2, ![1700000, 1]⟩ 32) (j : (⟨2, ![1700000, 128]⟩ : Shape).Idx) :
    (rowScatterDims wf).start j idx 1 = 0 := by
  unfold ScatterDims.start
  rw [dif_neg (show (1 : Fin 2) ∉ ([0] : List (Fin 2)) by decide)]

/-- Axis 0 of the operand is inserted: no window coordinate. -/
theorem rowScatter_window0 (wf : ScatterDims.WF ⟨2, ![100000, 128]⟩ ⟨2, ![1700000, 1]⟩ ⟨2, ![1700000, 128]⟩ [1] [0] [0] 1)
    (j : (⟨2, ![1700000, 128]⟩ : Shape).Idx) : (rowScatterDims wf).window j 0 = 0 := rfl

/-- Axis 1 of the operand takes the update's column. -/
theorem rowScatter_window1 (wf : ScatterDims.WF ⟨2, ![100000, 128]⟩ ⟨2, ![1700000, 1]⟩ ⟨2, ![1700000, 128]⟩ [1] [0] [0] 1)
    (j : (⟨2, ![1700000, 128]⟩ : Shape).Idx) : (rowScatterDims wf).window j 1 = (j 1).val := rfl

/-- An update row lands in row `i 0` exactly when its start word, read signed and NOT clamped, is that row; it keeps
    its column. -/
theorem rowScatter_resultIdx (wf : ScatterDims.WF ⟨2, ![100000, 128]⟩ ⟨2, ![1700000, 1]⟩ ⟨2, ![1700000, 128]⟩ [1] [0] [0] 1)
    (idx : IVec ⟨2, ![1700000, 1]⟩ 32) (j : (⟨2, ![1700000, 128]⟩ : Shape).Idx) (i : (⟨2, ![100000, 128]⟩ : Shape).Idx)
    (h : (rowScatterDims wf).resultIdx? j idx = some i) :
    (idx (ix2 (j 0) (0 : Fin 1))).toInt = ((i 0).val : ℤ) ∧ i 1 = j 1 := by
  unfold ScatterDims.resultIdx? at h
  split at h
  · rename_i hall
    have hi := Option.some.inj h
    have h0 : ((i 0).val : ℤ) = (((rowScatterDims wf).start j idx 0 + ((rowScatterDims wf).window j 0 : ℕ)).toNat : ℤ) := by
      rw [← hi]
    have h1 : (i 1).val = ((rowScatterDims wf).start j idx 1 + ((rowScatterDims wf).window j 1 : ℕ)).toNat := by
      rw [← hi]
    have hb0 := hall 0
    rw [rowScatter_start0, rowScatter_window0] at h0 hb0
    rw [rowScatter_start1, rowScatter_window1] at h1
    refine ⟨by omega, Fin.ext ?_⟩
    rw [h1]; omega
  · exact absurd h (by simp)

/-- A start word that reads signed as a node number IS that node. -/
theorem nodeOf_of_toInt (v : BitVec 32) (r : Fin 100000) (h : v.toInt = (r.val : ℤ)) : nodeOf v = r := by
  refine Fin.ext ?_
  show min v.toInt.toNat 99999 = r.val
  have := r.isLt
  omega

/-- A word that reads signed as a node number is not negative. -/
theorem slt_zero_of_toInt (v : BitVec 32) (r : Fin 100000) (h : v.toInt = (r.val : ℤ)) :
    IntOp.cmpi .slt v 0#32 = 0#1 := by
  have hs : v.slt 0#32 = false := by
    rw [BitVec.slt, decide_eq_false_iff_not, h]
    simp
  simp only [IntOp.cmpi, hs]
  rfl

/-- The wrap-around of negative words (add 100000 to a negative word) leaves a node number alone. -/
theorem wrap_of_toInt (v : BitVec 32) (r : Fin 100000) (h : v.toInt = (r.val : ℤ)) :
    Scalar.select (IntOp.cmpi .slt v 0#32) (IntOp.addi v 100000#32) v = v := by
  rw [slt_zero_of_toInt v r h]
  exact select_zero _ _

/-- The same on a whole array of words, read at one position: where the word reads signed as a node number, the
    wrapped array has that word. -/
theorem wrap_apply {s : Shape} (hb : (⟨0, ![]⟩ : Shape).BroadcastsInDim s ![]) (a : IVec s 32) (k : s.Idx)
    (r : Fin 100000) (h : (a k).toInt = (r.val : ℤ)) :
    (select (cmpi .slt a (broadcastInDim s ![] hb (constantI ⟨0, ![]⟩ 32 0#32)))
      (addi a (broadcastInDim s ![] hb (constantI ⟨0, ![]⟩ 32 100000#32))) a) k = a k :=
  wrap_of_toInt (a k) r h

/-- The weight of a node: the inverse square root of a number at least 1 is a nonnegative real. -/
theorem rsqrt_max_one (y : EReal) : 0 ≤ Ideal.rsqrt (max y 1) ∧ Ideal.rsqrt (max y 1) ≠ ⊤ := by
  have h1 : (1 : EReal) ≤ max y 1 := le_max_right _ _
  generalize max y 1 = z at h1
  induction z using EReal.rec with
  | bot => exact absurd h1 (not_le.mpr (by exact_mod_cast EReal.bot_lt_coe 1))
  | top => exact ⟨le_refl _, EReal.zero_ne_top⟩
  | coe r =>
    have hr : (1 : ℝ) ≤ r := by exact_mod_cast h1
    have h0 : ¬ r < 0 := by linarith
    have hne : ¬ r = 0 := by linarith
    have hval : Ideal.rsqrt (r : EReal) = (((Real.sqrt r)⁻¹ : ℝ) : EReal) := by
      show (if r < 0 then (⊥ : EReal) else if r = 0 then ⊤ else (((Real.sqrt r)⁻¹ : ℝ) : EReal)) = _
      rw [if_neg h0, if_neg hne]
    rw [hval]
    exact ⟨by exact_mod_cast inv_nonneg.mpr (Real.sqrt_nonneg r), EReal.coe_ne_top _⟩

/-- The 32-bit word 0x3F800000 is the number one. -/
theorem ofBits_one_f32 : Ideal.ofBits .f32 0x3F800000#32 = 1 := by
  simp [Ideal.ofBits, Ideal.ieee]
  norm_cast
  norm_num

/-- The converse as well: update (e, c) lands at (r, c') exactly when the start word of e reads signed as r and
    c' = c. -/
theorem rowScatter_resultIdx_iff (wf : ScatterDims.WF ⟨2, ![100000, 128]⟩ ⟨2, ![1700000, 1]⟩ ⟨2, ![1700000, 128]⟩ [1] [0] [0] 1)
    (idx : IVec ⟨2, ![1700000, 1]⟩ 32) (j : (⟨2, ![1700000, 128]⟩ : Shape).Idx) (i : (⟨2, ![100000, 128]⟩ : Shape).Idx) :
    (rowScatterDims wf).resultIdx? j idx = some i ↔
      (idx (ix2 (j 0) (0 : Fin 1))).toInt = ((i 0).val : ℤ) ∧ i 1 = j 1 := by
  refine ⟨rowScatter_resultIdx wf idx j i, ?_⟩
  rintro ⟨h0, h1⟩
  have hi0 : (i 0).val < 100000 := idx2_lt0 i
  have hj1 : (j 1).val < 128 := idx2_lt1 j
  have hall : ∀ a : Fin 2, 0 ≤ (rowScatterDims wf).start j idx a + ((rowScatterDims wf).window j a : ℕ) ∧
      (rowScatterDims wf).start j idx a + ((rowScatterDims wf).window j a : ℕ)
        < (((⟨2, ![100000, 128]⟩ : Shape).size a : ℕ) : ℤ) := by
    intro a
    match a with
    | ⟨0, _⟩ =>
      show 0 ≤ (rowScatterDims wf).start j idx 0 + ((rowScatterDims wf).window j 0 : ℕ) ∧
        (rowScatterDims wf).start j idx 0 + ((rowScatterDims wf).window j 0 : ℕ) < ((100000 : ℕ) : ℤ)
      rw [rowScatter_start0, rowScatter_window0, h0]; omega
    | ⟨1, _⟩ =>
      show 0 ≤ (rowScatterDims wf).start j idx 1 + ((rowScatterDims wf).window j 1 : ℕ) ∧
        (rowScatterDims wf).start j idx 1 + ((rowScatterDims wf).window j 1 : ℕ) < ((128 : ℕ) : ℤ)
      rw [rowScatter_start1, rowScatter_window1]; omega
  unfold ScatterDims.resultIdx?
  rw [dif_pos hall]
  congr 1
  funext a
  refine Fin.ext ?_
  match a with
  | ⟨0, _⟩ =>
    show ((rowScatterDims wf).start j idx 0 + ((rowScatterDims wf).window j 0 : ℕ)).toNat = (i 0).val
    rw [rowScatter_start0, rowScatter_window0, h0]; omega
  | ⟨1, _⟩ =>
    show ((rowScatterDims wf).start j idx 1 + ((rowScatterDims wf).window j 1 : ℕ)).toNat = (i 1).val
    rw [rowScatter_start1, rowScatter_window1, h1]; omega

open scoped BigOperators in
/-- THE ROW SCATTER-ADD READ AT (r, c): the operand there plus the sum, over the update rows e whose start word reads
    signed as r, of update (e, c). -/
theorem rowScatterAdd_apply (wf : ScatterDims.WF ⟨2, ![100000, 128]⟩ ⟨2, ![1700000, 1]⟩ ⟨2, ![1700000, 128]⟩ [1] [0] [0] 1)
    (x : (⟨2, ![100000, 128]⟩ : Shape).Idx → EReal) (idx : IVec ⟨2, ![1700000, 1]⟩ 32)
    (upd : (⟨2, ![1700000, 128]⟩ : Shape).Idx → EReal) (i : (⟨2, ![100000, 128]⟩ : Shape).Idx) :
    Ideal.hostScatterAdd (rowScatterDims wf) x idx upd i =
      x i + ∑ e ∈ Finset.univ.filter (fun e : Fin 1700000 => (idx (ix2 e (0 : Fin 1))).toInt = ((i 0).val : ℤ)),
        upd (ix2 e (i 1)) := by
  unfold Ideal.hostScatterAdd
  refine congrArg (fun t => x i + t) ?_
  refine Finset.sum_nbij' (fun j => j 0) (fun e => ix2 e (i 1)) ?_ ?_ ?_ ?_ ?_
  · intro j hj
    exact Finset.mem_filter.2 ⟨Finset.mem_univ _, (rowScatter_resultIdx wf idx j i (Finset.mem_filter.1 hj).2).1⟩
  · intro e he
    exact Finset.mem_filter.2 ⟨Finset.mem_univ _,
      (rowScatter_resultIdx_iff wf idx _ i).2 ⟨(Finset.mem_filter.1 he).2, rfl⟩⟩
  · intro j hj
    have h1 := (rowScatter_resultIdx wf idx j i (Finset.mem_filter.1 hj).2).2
    show ix2 (j 0) (i 1) = j
    rw [h1]; exact (eq_ix2 j).symm
  · intro e _; rfl
  · intro j hj
    have h1 := (rowScatter_resultIdx wf idx j i (Finset.mem_filter.1 hj).2).2
    show upd j = upd (ix2 (j 0) (i 1))
    rw [h1]; exact congrArg upd (eq_ix2 j)

/-- The dimension numbers of the entry scatter: operand [100000], start words [1700000, 1], updates [1700000]. -/
abbrev nodeScatterDims (wf : ScatterDims.WF ⟨1, ![100000]⟩ ⟨2, ![1700000, 1]⟩ ⟨1, ![1700000]⟩ [] [0] [0] 1) :
    ScatterDims ⟨1, ![100000]⟩ ⟨2, ![1700000, 1]⟩ ⟨1, ![1700000]⟩ where
  updateWindowDims := []
  insertedWindowDims := [0]
  scatterDimsToOperandDims := [0]
  indexVectorDim := 1
  wf := wf

/-- The start of update e on the operand's one axis is its start word read signed. -/
theorem nodeScatter_start0 (wf : ScatterDims.WF ⟨1, ![100000]⟩ ⟨2, ![1700000, 1]⟩ ⟨1, ![1700000]⟩ [] [0] [0] 1)
    (idx : IVec ⟨2, ![1700000, 1]⟩ 32) (j : (⟨1, ![1700000]⟩ : Shape).Idx) :
    (nodeScatterDims wf).start j idx 0 = (idx (ix2 (j 0) (0 : Fin 1))).toInt := by
  unfold ScatterDims.start
  rw [dif_pos (show (0 : Fin 1) ∈ (nodeScatterDims wf).scatterDimsToOperandDims from List.mem_singleton.mpr rfl)]
  have hsi : (nodeScatterDims wf).siIdx j ⟨List.idxOf (0 : Fin 1) (nodeScatterDims wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's one axis is inserted: no window coordinate. -/
theorem nodeScatter_window0 (wf : ScatterDims.WF ⟨1, ![100000]⟩ ⟨2, ![1700000, 1]⟩ ⟨1, ![1700000]⟩ [] [0] [0] 1)
    (j : (⟨1, ![1700000]⟩ : Shape).Idx) : (nodeScatterDims wf).window j 0 = 0 := rfl

/-- Update e lands at entry r exactly when its start word, read signed and not clamped, is r. -/
theorem nodeScatter_resultIdx_iff (wf : ScatterDims.WF ⟨1, ![100000]⟩ ⟨2, ![1700000, 1]⟩ ⟨1, ![1700000]⟩ [] [0] [0] 1)
    (idx : IVec ⟨2, ![1700000, 1]⟩ 32) (j : (⟨1, ![1700000]⟩ : Shape).Idx) (i : (⟨1, ![100000]⟩ : Shape).Idx) :
    (nodeScatterDims wf).resultIdx? j idx = some i ↔ (idx (ix2 (j 0) (0 : Fin 1))).toInt = ((i 0).val : ℤ) := by
  have hi0 : (i 0).val < 100000 := (i 0).isLt
  constructor
  · intro h
    unfold ScatterDims.resultIdx? at h
    split at h
    · rename_i hall
      have hi := Option.some.inj h
      have h0 : ((i 0).val : ℤ)
          = (((nodeScatterDims wf).start j idx 0 + ((nodeScatterDims wf).window j 0 : ℕ)).toNat : ℤ) := by
        rw [← hi]
      have hb0 := hall 0
      rw [nodeScatter_start0, nodeScatter_window0] at h0 hb0
      omega
    · exact absurd h (by simp)
  · intro h0
    have hall : ∀ a : Fin 1, 0 ≤ (nodeScatterDims wf).start j idx a + ((nodeScatterDims wf).window j a : ℕ) ∧
        (nodeScatterDims wf).start j idx a + ((nodeScatterDims wf).window j a : ℕ)
          < (((⟨1, ![100000]⟩ : Shape).size a : ℕ) : ℤ) := by
      intro a
      obtain rfl : a = 0 := Subsingleton.elim _ _
      show 0 ≤ (nodeScatterDims wf).start j idx 0 + ((nodeScatterDims wf).window j 0 : ℕ) ∧
        (nodeScatterDims wf).start j idx 0 + ((nodeScatterDims wf).window j 0 : ℕ) < ((100000 : ℕ) : ℤ)
      rw [nodeScatter_start0, nodeScatter_window0, h0]; omega
    unfold ScatterDims.resultIdx?
    rw [dif_pos hall]
    congr 1
    funext a
    obtain rfl : a = 0 := Subsingleton.elim _ _
    refine Fin.ext ?_
    show ((nodeScatterDims wf).start j idx 0 + ((nodeScatterDims wf).window j 0 : ℕ)).toNat = (i 0).val
    rw [nodeScatter_start0, nodeScatter_window0, h0]; omega

open scoped BigOperators in
/-- THE ENTRY SCATTER-ADD READ AT r: the operand there plus the sum, over the updates e whose start word reads
    signed as r, of update e. -/
theorem nodeScatterAdd_apply (wf : ScatterDims.WF ⟨1, ![100000]⟩ ⟨2, ![1700000, 1]⟩ ⟨1, ![1700000]⟩ [] [0] [0] 1)
    (x : (⟨1, ![100000]⟩ : Shape).Idx → EReal) (idx : IVec ⟨2, ![1700000, 1]⟩ 32)
    (upd : (⟨1, ![1700000]⟩ : Shape).Idx → EReal) (i : (⟨1, ![100000]⟩ : Shape).Idx) :
    Ideal.hostScatterAdd (nodeScatterDims wf) x idx upd i =
      x i + ∑ e ∈ Finset.univ.filter (fun e : Fin 1700000 => (idx (ix2 e (0 : Fin 1))).toInt = ((i 0).val : ℤ)),
        upd (ix1 e) := by
  unfold Ideal.hostScatterAdd
  refine congrArg (fun t => x i + t) ?_
  refine Finset.sum_nbij' (fun j => j 0) (fun e => ix1 e) ?_ ?_ ?_ ?_ ?_
  · intro j hj
    exact Finset.mem_filter.2 ⟨Finset.mem_univ _, (nodeScatter_resultIdx_iff wf idx j i).1 (Finset.mem_filter.1 hj).2⟩
  · intro e he
    exact Finset.mem_filter.2 ⟨Finset.mem_univ _, (nodeScatter_resultIdx_iff wf idx _ i).2 (Finset.mem_filter.1 he).2⟩
  · intro j _
    exact (eq_ix1 j).symm
  · intro e _; rfl
  · intro j _
    exact congrArg upd (eq_ix1 j)

end Cert.Gcn

end
-- ==== Proof.Region0.lean ====
/-
  Region 0 of the idealized kernel: the input layer, a dense map with a bias.

  The region multiplies a 100000 × 32 array of input features `x` by a 32 × 128 weight matrix `W` and adds a row of
  biases `b`, 5000 rows at a time: grid point `t` reads rows `5000 t … 5000 t + 4999` of `x`, the whole of `W` and
  the one row `b`, forms the matrix product (rounding to a narrower float format on the way in is the identity on
  extended reals, and the accumulator starts at zero), adds `b` to every row of it, and writes the 5000 × 128 result
  over the same rows of the output array.  The twenty row blocks tile the output, so after the region the output
  array is `x · W + b` at every index: entry `(r, n)` is `(∑ k, x (r, k) · W (k, n)) + b (0, n)`.
-/
import proofs.«113610_j1984274891289_2_alg».proof.Proof.Gen.KernelIdeal.Frame
import proofs.«113610_j1984274891289_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a rank-2 rectangle, as a constant function. -/
theorem zeroOffset0 : (![0, 0] : Fin 2 → Nat) = fun _ => 0 := funext fun a => by fin_cases a <;> rfl

/-- In the product's index bookkeeping the left operand is read at the output's row … -/
theorem lhsRow0 (i : S5000x128.Idx) (u : dot_S5000x32_S32x128_S5000x128_1_0_0_1_n_n.contr.Idx) :
    (dot_S5000x32_S32x128_S5000x128_1_0_0_1_n_n.lhsIdx i u 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
/-- … and the contracted position, -/
theorem lhsCol0 (i : S5000x128.Idx) (u : dot_S5000x32_S32x128_S5000x128_1_0_0_1_n_n.contr.Idx) :
    (dot_S5000x32_S32x128_S5000x128_1_0_0_1_n_n.lhsIdx i u 1).val = (u ⟨0, by decide⟩).val :=
  dot_S5000x32_S32x128_S5000x128_1_0_0_1_n_n.lhsIdx_val_of_single rfl i u
/-- the right operand at the contracted position … -/
theorem rhsRow0 (i : S5000x128.Idx) (u : dot_S5000x32_S32x128_S5000x128_1_0_0_1_n_n.contr.Idx) :
    (dot_S5000x32_S32x128_S5000x128_1_0_0_1_n_n.rhsIdx i u 0).val = (u ⟨0, by decide⟩).val :=
  dot_S5000x32_S32x128_S5000x128_1_0_0_1_n_n.rhsIdx_val_of_single rfl i u
/-- … and the output's column. -/
theorem rhsCol0 (i : S5000x128.Idx) (u : dot_S5000x32_S32x128_S5000x128_1_0_0_1_n_n.contr.Idx) :
    (dot_S5000x32_S32x128_S5000x128_1_0_0_1_n_n.rhsIdx i u 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- One block's result at row `p`, column `q`: the sum over the 32 contracted positions of the feature block's row `p`
    against the weight block's column `q`, plus the bias row at `q`. -/
theorem blockResult0 (x0 : Vec Ideal S5000x32 .f32) (x1 : Vec Ideal S32x128 .f32) (x2 : Vec Ideal S1x128 .f32) (p : Fin 5000) (q : Fin 128) :
    k0_pay1 (F := Ideal) x0 x1 x2 (ix2 p q) = (∑ k : Fin 32, x0 (ix2 p k) * x1 (ix2 k q)) + x2 (ix2 (0 : Fin 1) q) := by
  unfold k0_pay1
  rw [shapeCast_self]
  refine (addf_apply _ _ (ix2 p q)).trans ?_
  refine congrArg₂ (· + ·) ?_ ?_
  · refine (Ideal.matmul_constant_zero_apply dot_S5000x32_S32x128_S5000x128_1_0_0_1_n_n none _ _ (ix2 p q)).trans ?_
    rw [← Equiv.sum_comp (contrEquiv1 dot_S5000x32_S32x128_S5000x128_1_0_0_1_n_n 32 rfl rfl).symm]
    refine Finset.sum_congr rfl fun k _ => ?_
    have hk := contrEquiv1_symm_val dot_S5000x32_S32x128_S5000x128_1_0_0_1_n_n 32 rfl rfl k
    have el : dot_S5000x32_S32x128_S5000x128_1_0_0_1_n_n.lhsIdx (ix2 p q) ((contrEquiv1 dot_S5000x32_S32x128_S5000x128_1_0_0_1_n_n 32 rfl rfl).symm k) = ix2 p k := funext fun a => Fin.ext (by
      match a with
      | ⟨0, _⟩ => exact lhsRow0 _ _
      | ⟨1, _⟩ => exact (lhsCol0 _ _).trans hk)
    have er : dot_S5000x32_S32x128_S5000x128_1_0_0_1_n_n.rhsIdx (ix2 p q) ((contrEquiv1 dot_S5000x32_S32x128_S5000x128_1_0_0_1_n_n 32 rfl rfl).symm k) = ix2 k q := funext fun a => Fin.ext (by
      match a with
      | ⟨0, _⟩ => exact (rhsRow0 _ _).trans hk
      | ⟨1, _⟩ => exact rhsCol0 _ _)
    rw [el, er]
    rfl
  · refine broadcastTo_apply x2 broadcasts_S1x128_S5000x128 (ix2 p q) (ix2 (0 : Fin 1) q) fun a => ?_
    match a with
    | ⟨0, _⟩ => rfl
    | ⟨1, _⟩ => rfl

/-- Where the four windows sit at grid point `t`, decided over the twenty points: the feature window and the output
    window are at row block `t`, and every other block index is zero (the weight window is the whole matrix, the
    bias window the whole row). -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `5000 t … 5000 t + 4999` of the input feature array. -/
theorem featureBlock0 (c : Dev nD) (t : Fin cfg0.N) (y : S5000x32.Idx) (i : S100000x32.Idx)
    (h0 : (i 0).val = 5000 * t.val + (y 0).val) (h1 : (i 1).val = (y 1).val) :
    (iblk0 V c 0 t : Vec Ideal S5000x32 .f32) y = (V c main_arg0 : S100000x32.Idx → EReal) i := by
  obtain ⟨e0, e1, -, -, -, -, -, -⟩ := blockIndices0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 32 + 1 * (y 1).val = (i 1).val; rw [e1, h1]; omega

/-- The weight window's block is the whole weight matrix at every point. -/
theorem weightBlock0 (c : Dev nD) (t : Fin cfg0.N) (y : S32x128.Idx) :
    (iblk0 V c 1 t : Vec Ideal S32x128 .f32) y = (V c main_arg3 : S32x128.Idx → EReal) y := by
  obtain ⟨-, -, e2, e3, -, -, -, -⟩ := blockIndices0 t
  unfold iblk0
  rw [View.read_apply]
  show V c main_arg3 _ = V c main_arg3 _
  refine congrArg (V c main_arg3) ?_
  funext a
  apply Fin.ext
  match a with
  | ⟨0, _⟩ => show win0_1.index t (0 : Fin 2) * 32 + 1 * (y 0).val = (y 0).val; rw [e2]; omega
  | ⟨1, _⟩ => show win0_1.index t (1 : Fin 2) * 128 + 1 * (y 1).val = (y 1).val; rw [e3]; omega

/-- The bias window's block is the whole bias row at every point. -/
theorem biasBlock0 (c : Dev nD) (t : Fin cfg0.N) (y : S1x128.Idx) :
    (iblk0 V c 2 t : Vec Ideal S1x128 .f32) y = (V c main_v17 : S1x128.Idx → EReal) y := by
  obtain ⟨-, -, -, -, e4, e5, -, -⟩ := blockIndices0 t
  unfold iblk0
  rw [View.read_apply]
  show V c main_v17 _ = V c main_v17 _
  refine congrArg (V c main_v17) ?_
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- A block's result is the whole map's rows: if the feature block's row `p` is row `r` of `x`, the weight block is
    `W` and the bias block is `b`, entry `(p, q)` of the block's result is entry `(r, q)` of `x · W + b`. -/
theorem blockResult_eq_linear0 (x : S100000x32.Idx → EReal) (W : S32x128.Idx → EReal) (b : S1x128.Idx → EReal)
    (x0 : Vec Ideal S5000x32 .f32) (x1 : Vec Ideal S32x128 .f32) (x2 : Vec Ideal S1x128 .f32) (p : Fin 5000) (q : Fin 128) (r : Fin 100000)
    (hx0 : ∀ k : Fin 32, x0 (ix2 p k) = x (ix2 r k)) (hx1 : ∀ k : Fin 32, x1 (ix2 k q) = W (ix2 k q))
    (hx2 : x2 (ix2 (0 : Fin 1) q) = b (ix2 (0 : Fin 1) q)) :
    k0_pay1 (F := Ideal) x0 x1 x2 (ix2 p q) = Cert.Gcn.linear x W b (ix2 r q) := by
  rw [blockResult0, hx2]
  show _ = (∑ k : Fin 32, x (ix2 r k) * W (ix2 k q)) + b (ix2 (0 : Fin 1) q)
  exact congrArg (· + b (ix2 (0 : Fin 1) q)) (Finset.sum_congr rfl fun k _ => by rw [hx0 k, hx1 k])

/-- What point `t` writes back is block `t` of `x · W + b`, the three input arrays as the region finds them. -/
theorem flushed0 (c : Dev nD) (t : Fin cfg0.N) :
    (dat0 (F := Ideal) V c).flushed 3 t = ((cfg0.win 3).blk t).view.read (Elt Ideal) (Cert.Gcn.linear (V c main_arg0) (V c main_arg3) (V c main_v17)) := by
  show (cfg0.win 3).cut (grid0.coords t) ((dat0 V c).after 3 t) = _
  rw [after0_3]
  unfold out0_3
  rw [View.canon_unit_zero zeroOffset0]
  simp only [View.ld_unit_zero (S := S5000x32) zeroOffset0, View.ld_unit_zero (S := S32x128) zeroOffset0, View.ld_unit_zero (S := S1x128) zeroOffset0]
  funext j
  obtain ⟨-, -, -, -, -, -, e6, e7⟩ := blockIndices0 t
  obtain ⟨p, q, rfl⟩ : ∃ (p : Fin 5000) (q : Fin 128), j = ix2 p q := ⟨j 0, j 1, eq_ix2 j⟩
  have ht : t.val < grid0.N := t.isLt
  rw [N_0] at ht
  have hr : 5000 * t.val + p.val < 100000 := by omega
  rw [View.read_apply]
  have hemb : ((cfg0.win 3).blk t).view.emb (ix2 p q) = ix2 (⟨5000 * t.val + p.val, hr⟩ : Fin 100000) q := by
    funext a; apply Fin.ext
    match a with
    | ⟨0, _⟩ => show win0_3.index t (0 : Fin 2) * 5000 + 1 * p.val = 5000 * t.val + p.val; rw [e6]; omega
    | ⟨1, _⟩ => show win0_3.index t (1 : Fin 2) * 128 + 1 * q.val = q.val; rw [e7]; omega
  show k0_pay1 (F := Ideal) (iblk0 V c 0 t) (iblk0 V c 1 t) (iblk0 V c 2 t) (ix2 p q) = Cert.Gcn.linear (V c main_arg0) (V c main_arg3) (V c main_v17) (((cfg0.win 3).blk t).view.emb (ix2 p q))
  rw [hemb]
  exact blockResult_eq_linear0 (V c main_arg0) (V c main_arg3) (V c main_v17) (iblk0 V c 0 t) (iblk0 V c 1 t) (iblk0 V c 2 t) p q ⟨5000 * t.val + p.val, hr⟩
    (fun k => featureBlock0 V c t (ix2 p k) (ix2 (⟨5000 * t.val + p.val, hr⟩ : Fin 100000) k) rfl rfl) (fun k => weightBlock0 V c t (ix2 k q))
    (biasBlock0 V c t (ix2 (0 : Fin 1) q))

/-- An index of the output array lies in point `t`'s block iff each coordinate lies in the block's range on its axis. -/
theorem mem_block0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The twenty row blocks tile the output: row `r` lies in the block of point `r / 5000`, which writes back. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, -, -, e6, e7⟩ := blockIndices0 t
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the output array is `x · W + b` at every index, `x`, `W` and `b` the input feature array, the
    weight matrix and the bias row as the region finds them. -/
theorem final0 (c : Dev nD) : (dat0 (F := Ideal) V c).arrAt 3 cfg0.N = Cert.Gcn.linear (V c main_arg0) (V c main_arg3) (V c main_v17) :=
  (dat0 (F := Ideal) V c).arrAt_eq_of_cover 3 (Cert.Gcn.linear (V c main_arg0) (V c main_arg3) (V c main_v17)) (fun t _ => flushed0 V c t) covered0

end Cert.KernelIdeal.RegionValue

end
-- ==== Proof.Region1.lean ====
/-
  Region 1 of the idealized kernel: a dense projection of node features.

  The region multiplies a 100000 × 128 array of node features `h` by a 128 × 128 weight matrix `W`, 5000 rows at a
  time: grid point `t` reads rows `5000 t … 5000 t + 4999` of `h` and the whole of `W`, forms their matrix product
  (rounding to a narrower float format on the way in is the identity on extended reals, and the accumulator starts
  at zero), and writes the 5000 × 128 result over the same rows of the output array.  The twenty row blocks tile the
  output, so after the region the output array is `h · W` at every index: entry `(r, n)` is `∑ k, h (r, k) · W (k, n)`.
-/
import proofs.«113610_j1984274891289_2_alg».proof.Proof.Gen.KernelIdeal.Frame
import proofs.«113610_j1984274891289_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a rank-2 rectangle, as a constant function. -/
theorem zeroOffset1 : (![0, 0] : Fin 2 → Nat) = fun _ => 0 := funext fun a => by fin_cases a <;> rfl

/-- In the product's index bookkeeping the left operand is read at the output's row … -/
theorem lhsRow1 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted position, -/
theorem lhsCol1 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
/-- the right operand at the contracted position … -/
theorem rhsRow1 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
/-- … and the output's column. -/
theorem rhsCol1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block's product at row `p`, column `q`: the sum over the 128 contracted positions of the feature block's
    row `p` against the weight block's column `q`. -/
theorem blockProduct1 (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  rw [shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRow1 _ _
    | ⟨1, _⟩ => exact (lhsCol1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRow1 _ _).trans hk
    | ⟨1, _⟩ => exact rhsCol1 _ _)
  rw [el, er]
  rfl

/-- Where the three windows sit at grid point `t`, decided over the twenty points: the feature window and the output
    window are at row block `t`, and every other block index is zero (the weight window is the whole matrix). -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point `t` is rows `5000 t … 5000 t + 4999` of the feature array. -/
theorem featureBlock1 (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v18 : S100000x128.Idx → EReal) i := by
  obtain ⟨e0, e1, -, -, -, -⟩ := blockIndices1 t
  unfold iblk1
  rw [View.read_apply]
  show V c main_v18 _ = V c main_v18 _
  refine congrArg (V c main_v18) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight window's block is the whole weight matrix at every point. -/
theorem weightBlock1 (c : Dev nD) (t : Fin cfg1.N) (y : S128x128.Idx) :
    (iblk1 V c 1 t : Vec Ideal S128x128 .f32) y = (V c main_arg7 : S128x128.Idx → EReal) y := by
  obtain ⟨-, -, e2, e3, -, -⟩ := blockIndices1 t
  unfold iblk1
  rw [View.read_apply]
  show V c main_arg7 _ = V c main_arg7 _
  refine congrArg (V c main_arg7) ?_
  funext a
  apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- A block's product is the whole product's rows: if the feature block's row `p` is row `r` of `h` and the weight
    block is `W`, entry `(p, q)` of the block's product is entry `(r, q)` of `h · W`. -/
theorem blockProduct_eq_proj1 (h : S100000x128.Idx → EReal) (W : S128x128.Idx → EReal)
    (x0 : Vec Ideal S5000x128 .f32) (x1 : Vec Ideal S128x128 .f32) (p : Fin 5000) (q : Fin 128) (r : Fin 100000)
    (hx0 : ∀ k : Fin 128, x0 (ix2 p k) = h (ix2 r k)) (hx1 : ∀ k : Fin 128, x1 (ix2 k q) = W (ix2 k q)) :
    k1_pay1 (F := Ideal) x0 x1 (ix2 p q) = Cert.Gcn.proj h W (ix2 r q) := by
  rw [blockProduct1]
  unfold Cert.Gcn.proj
  exact Finset.sum_congr rfl fun k _ => by rw [hx0 k, hx1 k]

/-- What point `t` writes back is block `t` of `h · W`, `h` and `W` the two input arrays as the region finds them. -/
theorem flushed1 (c : Dev nD) (t : Fin cfg1.N) :
    (dat1 (F := Ideal) V c).flushed 2 t = ((cfg1.win 2).blk t).view.read (Elt Ideal) (Cert.Gcn.proj (V c main_v18) (V c main_arg7)) := by
  show (cfg1.win 2).cut (grid1.coords t) ((dat1 V c).after 2 t) = _
  rw [after1_2]
  unfold out1_2
  rw [View.canon_unit_zero zeroOffset1]
  simp only [View.ld_unit_zero (S := S5000x128) zeroOffset1, View.ld_unit_zero (S := S128x128) zeroOffset1]
  funext j
  obtain ⟨-, -, -, -, e4, e5⟩ := blockIndices1 t
  obtain ⟨p, q, rfl⟩ : ∃ (p : Fin 5000) (q : Fin 128), j = ix2 p q := ⟨j 0, j 1, eq_ix2 j⟩
  have ht : t.val < grid1.N := t.isLt
  rw [N_1] at ht
  have hr : 5000 * t.val + p.val < 100000 := by omega
  rw [View.read_apply]
  have hemb : ((cfg1.win 2).blk t).view.emb (ix2 p q) = ix2 (⟨5000 * t.val + p.val, hr⟩ : Fin 100000) q := by
    funext a; apply Fin.ext
    match a with
    | ⟨0, _⟩ => show win1_2.index t (0 : Fin 2) * 5000 + 1 * p.val = 5000 * t.val + p.val; rw [e4]; omega
    | ⟨1, _⟩ => show win1_2.index t (1 : Fin 2) * 128 + 1 * q.val = q.val; rw [e5]; omega
  show k1_pay1 (F := Ideal) (iblk1 V c 0 t) (iblk1 V c 1 t) (ix2 p q) = Cert.Gcn.proj (V c main_v18) (V c main_arg7) (((cfg1.win 2).blk t).view.emb (ix2 p q))
  rw [hemb]
  exact blockProduct_eq_proj1 (V c main_v18) (V c main_arg7) (iblk1 V c 0 t) (iblk1 V c 1 t) p q ⟨5000 * t.val + p.val, hr⟩
    (fun k => featureBlock1 V c t (ix2 p k) (ix2 (⟨5000 * t.val + p.val, hr⟩ : Fin 100000) k) rfl rfl) (fun k => weightBlock1 V c t (ix2 k q))

/-- An index of the output array lies in point `t`'s block iff each coordinate lies in the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v19).slice (win1_2.rect t)).set ↔ _
  rw [View.set_slice_whole, Rect.mem_set_unit]
  exact Iff.rfl

/-- The twenty row blocks tile the output: row `r` lies in the block of point `r / 5000`, which writes back. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 := ⟨⟨(i 0).val / 5000, by show _ < grid1.N; omega⟩, rfl⟩
  obtain ⟨-, -, -, -, e4, e5⟩ := blockIndices1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is `h · W` at every index, `h` and `W` the feature array and the weight matrix
    as the region finds them. -/
theorem final1 (c : Dev nD) : (dat1 (F := Ideal) V c).arrAt 2 cfg1.N = Cert.Gcn.proj (V c main_v18) (V c main_arg7) :=
  (dat1 (F := Ideal) V c).arrAt_eq_of_cover 2 (Cert.Gcn.proj (V c main_v18) (V c main_arg7)) (fun t _ => flushed1 V c t) covered1

end Cert.KernelIdeal.RegionValue

end
-- ==== Proof.Region2.lean ====
/-
  The finishing step of the first graph-convolution layer, as one function of whole arrays.

  The step runs over 20 grid points.  Point `t` reads rows `5000 t … 5000 t + 4999` of the aggregate (`[100000, 128]`)
  and of the node weights (`[100000, 1]`), reads the bias row (`[1, 128]`) whole, and writes the same rows of the
  output.  Entry `(p, q)` of what it writes is `max (agg (p, q) · d (p, 0) + b (0, q)) 0`: the weight column is
  repeated along the 128 features, the bias row along the 5000 rows.  Since entry `(r, q)` of the output depends only
  on row `r` of the aggregate and the weights and on column `q` of the bias, and the 20 row blocks tile the 100000
  rows, the output array ends holding `Cert.Gcn.scaleBiasRelu` of the three arrays as the step finds them.
-/
import proofs.«113610_j1984274891289_2_alg».proof.Proof.Gen.KernelIdeal.Frame
import proofs.«113610_j1984274891289_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at an index -/

/-- A column `[a, 1]` broadcast to `[a, b]` reads, at `(p, q)`, the column's entry in row `p`. -/
theorem broadcastTo_column_apply2 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body at entry `(p, q)` of its block: the aggregate times the row's weight, plus the column's bias, clamped at zero. -/
theorem payload2_apply (x0 : Vec Ideal S5000x128 .f32) (x1 : Vec Ideal S5000x1 .f32) (x2 : Vec Ideal S1x128 .f32)
    (p : Fin 5000) (q : Fin 128) :
    k2_pay1 x0 x1 x2 (ix2 p q) = max (x0 (ix2 p q) * x1 (ix2 p (0 : Fin 1)) + x2 (ix2 (0 : Fin 1) q)) 0 := by
  unfold k2_pay1
  simp only [shapeCast_self]
  rw [maximumf_apply, addf_apply, mulf_apply, broadcast_apply, broadcastTo_column_apply2, broadcastTo_1b_ab_apply]
  exact congrArg (max _) Ideal.ofBits_zero_f32

/-- If the three blocks the body loads are the rows of the arrays `agg`, `d`, `b` that the output block's
    entries belong to (`e y` is where entry `y` of the output block sits in the array), the body's result at `y` is the
    layer's finishing step at `e y`. -/
theorem payload2_block (agg : S100000x128.Idx → EReal) (d : S100000x1.Idx → EReal) (b : S1x128.Idx → EReal)
    (x0 : Vec Ideal S5000x128 .f32) (x1 : Vec Ideal S5000x1 .f32) (x2 : Vec Ideal S1x128 .f32)
    (e : S5000x128.Idx → S100000x128.Idx)
    (h0 : ∀ y : S5000x128.Idx, x0 y = agg (e y))
    (h1 : ∀ y : S5000x128.Idx, x1 (ix2 (y 0 : Fin 5000) (0 : Fin 1)) = d (ix2 (e y 0 : Fin 100000) (0 : Fin 1)))
    (h2 : ∀ y : S5000x128.Idx, x2 (ix2 (0 : Fin 1) (y 1 : Fin 128)) = b (ix2 (0 : Fin 1) (e y 1 : Fin 128)))
    (y : S5000x128.Idx) : k2_pay1 x0 x1 x2 y = Cert.Gcn.scaleBiasRelu agg d b (e y) := by
  obtain ⟨p, q, rfl⟩ : ∃ (p : Fin 5000) (q : Fin 128), y = ix2 p q := ⟨y 0, y 1, eq_ix2 y⟩
  rw [payload2_apply]
  show max (x0 (ix2 p q) * x1 (ix2 p (0 : Fin 1)) + x2 (ix2 (0 : Fin 1) q)) 0
    = max (agg (e (ix2 p q)) * d (ix2 (e (ix2 p q) 0 : Fin 100000) (0 : Fin 1)) + b (ix2 (0 : Fin 1) (e (ix2 p q) 1 : Fin 128))) 0
  rw [h0 (ix2 p q), show x1 (ix2 p (0 : Fin 1)) = _ from h1 (ix2 p q), show x2 (ix2 (0 : Fin 1) q) = _ from h2 (ix2 p q)]

/-! ## From blocks to the array -/

theorem zeroOffsets2 : (![0, 0] : Fin 2 → Nat) = fun _ => 0 := funext fun a => by fin_cases a <;> rfl

/-- The index maps over the grid: point `t` takes row block `t` of the aggregate, of the weights and of the output,
    and the one block of the bias row. -/
theorem blockIndex2 : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- What point `t` writes back is block `t` of the layer's finishing step applied to the arrays as the region finds them. -/
theorem flushed2_eq (c : Dev nD) (t : Fin cfg2.N) :
    (dat2 V c).flushed 3 t = ((cfg2.win 3).blk t).view.read (Elt Ideal)
      (Cert.Gcn.scaleBiasRelu (V c main_v34) (V c main_v35) (V c main_v36)) := by
  show (cfg2.win 3).cut (grid2.coords t) ((dat2 V c).after 3 t) = _
  rw [after2_3]
  unfold out2_3
  rw [View.canon_unit_zero zeroOffsets2]
  simp only [View.ld_unit_zero (S := S5000x128) zeroOffsets2, View.ld_unit_zero (S := S5000x1) zeroOffsets2,
    View.ld_unit_zero (S := S1x128) zeroOffsets2]
  obtain ⟨e30, e31, e00, e01, e10, e11, e20, e21⟩ := blockIndex2 t
  funext j
  show k2_pay1 (iblk2 V c 0 t) (iblk2 V c 1 t) (iblk2 V c 2 t) j
    = Cert.Gcn.scaleBiasRelu (V c main_v34) (V c main_v35) (V c main_v36) (((cfg2.win 3).blk t).view.emb j)
  refine payload2_block (V c main_v34) (V c main_v35) (V c main_v36) (iblk2 V c 0 t) (iblk2 V c 1 t) (iblk2 V c 2 t)
    (((cfg2.win 3).blk t).view.emb) (fun y => ?_) (fun y => ?_) (fun y => ?_) j
  · -- the aggregate's block is the output block's rows and columns
    show V c main_v34 (((cfg2.win 0).blk t).view.emb y) = V c main_v34 (((cfg2.win 3).blk t).view.emb y)
    have h : ((cfg2.win 0).blk t).view.emb y = ((cfg2.win 3).blk t).view.emb y := by
      funext a; apply Fin.ext
      match a with
      | ⟨0, _⟩ => show win2_0.index t (0 : Fin 2) * 5000 + 1 * (y 0).val = win2_3.index t (0 : Fin 2) * 5000 + 1 * (y 0).val; omega
      | ⟨1, _⟩ => show win2_0.index t (1 : Fin 2) * 128 + 1 * (y 1).val = win2_3.index t (1 : Fin 2) * 128 + 1 * (y 1).val; omega
    exact congrArg (V c main_v34) h
  · -- the weights' block is the output block's rows, in the one column
    show V c main_v35 (((cfg2.win 1).blk t).view.emb (ix2 (y 0 : Fin 5000) (0 : Fin 1)))
      = V c main_v35 (ix2 ((((cfg2.win 3).blk t).view.emb y) 0 : Fin 100000) (0 : Fin 1))
    have h : ((cfg2.win 1).blk t).view.emb (ix2 (y 0 : Fin 5000) (0 : Fin 1))
        = ix2 ((((cfg2.win 3).blk t).view.emb y) 0 : Fin 100000) (0 : Fin 1) := by
      funext a; apply Fin.ext
      match a with
      | ⟨0, _⟩ => show win2_1.index t (0 : Fin 2) * 5000 + 1 * (y 0).val = win2_3.index t (0 : Fin 2) * 5000 + 1 * (y 0).val; omega
      | ⟨1, _⟩ => show win2_1.index t (1 : Fin 2) * 1 + 1 * 0 = 0; omega
    exact congrArg (V c main_v35) h
  · -- the bias row's one block is the whole row
    show V c main_v36 (((cfg2.win 2).blk t).view.emb (ix2 (0 : Fin 1) (y 1 : Fin 128)))
      = V c main_v36 (ix2 (0 : Fin 1) ((((cfg2.win 3).blk t).view.emb y) 1 : Fin 128))
    have h : ((cfg2.win 2).blk t).view.emb (ix2 (0 : Fin 1) (y 1 : Fin 128))
        = ix2 (0 : Fin 1) ((((cfg2.win 3).blk t).view.emb y) 1 : Fin 128) := by
      funext a; apply Fin.ext
      match a with
      | ⟨0, _⟩ => show win2_2.index t (0 : Fin 2) * 1 + 1 * 0 = 0; omega
      | ⟨1, _⟩ => show win2_2.index t (1 : Fin 2) * 128 + 1 * (y 1).val = win2_3.index t (1 : Fin 2) * 128 + 1 * (y 1).val; omega
    exact congrArg (V c main_v36) h

/-- An index of the array is in point `t`'s block iff each coordinate is in the block's range on its axis. -/
theorem mem_block2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v37).slice (win2_3.rect t)).set ↔ _
  rw [View.set_slice_whole, Rect.mem_set_unit]
  exact Iff.rfl

/-- Every entry of the array is in some point's block: row `r` is in the block of point `r / 5000`. -/
theorem covered2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by omega⟩
  have ht : t.val = (i 0).val / 5000 := rfl
  obtain ⟨e30, e31, -⟩ := blockIndex2 t
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region: the layer's finishing step applied to the three arrays the region reads,
    as the region finds them. -/
theorem final2 (c : Dev nD) : (dat2 (F := Ideal) V c).arrAt 3 cfg2.N
    = Cert.Gcn.scaleBiasRelu (V c main_v34) (V c main_v35) (V c main_v36) :=
  (dat2 V c).arrAt_eq_of_cover 3 (Cert.Gcn.scaleBiasRelu (V c main_v34) (V c main_v35) (V c main_v36))
    (fun t _ => flushed2_eq V c t) covered2

end Cert.KernelIdeal.RegionValue

end
-- ==== Proof.Region3.lean ====
/-
  Region 3 of the idealized kernel: the second layer's dense projection of node features.

  The region multiplies a 100000 × 128 array of node features `h` by a 128 × 128 weight matrix `W`, 5000 rows at a
  time: grid point `t` reads rows `5000 t … 5000 t + 4999` of `h` and the whole of `W`, forms their matrix product
  (rounding to a narrower float format on the way in is the identity on extended reals, and the accumulator starts
  at zero), and writes the 5000 × 128 result over the same rows of the output array.  The twenty row blocks tile the
  output, so after the region the output array is `h · W` at every index: entry `(r, n)` is `∑ k, h (r, k) · W (k, n)`.
-/
import proofs.«113610_j1984274891289_2_alg».proof.Proof.Gen.KernelIdeal.Frame
import proofs.«113610_j1984274891289_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a rank-2 rectangle, as a constant function. -/
theorem zeroOffset3 : (![0, 0] : Fin 2 → Nat) = fun _ => 0 := funext fun a => by fin_cases a <;> rfl

/-- In the product's index bookkeeping the left operand is read at the output's row … -/
theorem lhsRow3 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted position, -/
theorem lhsCol3 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
/-- the right operand at the contracted position … -/
theorem rhsRow3 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
/-- … and the output's column. -/
theorem rhsCol3 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block's product at row `p`, column `q`: the sum over the 128 contracted positions of the feature block's
    row `p` against the weight block's column `q`. -/
theorem blockProduct3 (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  rw [shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRow3 _ _
    | ⟨1, _⟩ => exact (lhsCol3 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRow3 _ _).trans hk
    | ⟨1, _⟩ => exact rhsCol3 _ _)
  rw [el, er]
  rfl

/-- Where the three windows sit at grid point `t`, decided over the twenty points: the feature window and the output
    window are at row block `t`, and every other block index is zero (the weight window is the whole matrix). -/
theorem blockIndices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature window's block at point `t` is rows `5000 t … 5000 t + 4999` of the feature array. -/
theorem featureBlock3 (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c main_v37 : S100000x128.Idx → EReal) i := by
  obtain ⟨e0, e1, -, -, -, -⟩ := blockIndices3 t
  unfold iblk3
  rw [View.read_apply]
  show V c main_v37 _ = V c main_v37 _
  refine congrArg (V c main_v37) ?_
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The weight window's block is the whole weight matrix at every point. -/
theorem weightBlock3 (c : Dev nD) (t : Fin cfg3.N) (y : S128x128.Idx) :
    (iblk3 V c 1 t : Vec Ideal S128x128 .f32) y = (V c main_arg9 : S128x128.Idx → EReal) y := by
  obtain ⟨-, -, e2, e3, -, -⟩ := blockIndices3 t
  unfold iblk3
  rw [View.read_apply]
  show V c main_arg9 _ = V c main_arg9 _
  refine congrArg (V c main_arg9) ?_
  funext a
  apply Fin.ext
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- A block's product is the whole product's rows: if the feature block's row `p` is row `r` of `h` and the weight
    block is `W`, entry `(p, q)` of the block's product is entry `(r, q)` of `h · W`. -/
theorem blockProduct_eq_proj3 (h : S100000x128.Idx → EReal) (W : S128x128.Idx → EReal)
    (x0 : Vec Ideal S5000x128 .f32) (x1 : Vec Ideal S128x128 .f32) (p : Fin 5000) (q : Fin 128) (r : Fin 100000)
    (hx0 : ∀ k : Fin 128, x0 (ix2 p k) = h (ix2 r k)) (hx1 : ∀ k : Fin 128, x1 (ix2 k q) = W (ix2 k q)) :
    k3_pay1 (F := Ideal) x0 x1 (ix2 p q) = Cert.Gcn.proj h W (ix2 r q) := by
  rw [blockProduct3]
  unfold Cert.Gcn.proj
  exact Finset.sum_congr rfl fun k _ => by rw [hx0 k, hx1 k]

/-- What point `t` writes back is block `t` of `h · W`, `h` and `W` the two input arrays as the region finds them. -/
theorem flushed3 (c : Dev nD) (t : Fin cfg3.N) :
    (dat3 (F := Ideal) V c).flushed 2 t = ((cfg3.win 2).blk t).view.read (Elt Ideal) (Cert.Gcn.proj (V c main_v37) (V c main_arg9)) := by
  show (cfg3.win 2).cut (grid3.coords t) ((dat3 V c).after 2 t) = _
  rw [after3_2]
  unfold out3_2
  rw [View.canon_unit_zero zeroOffset3]
  simp only [View.ld_unit_zero (S := S5000x128) zeroOffset3, View.ld_unit_zero (S := S128x128) zeroOffset3]
  funext j
  obtain ⟨-, -, -, -, e4, e5⟩ := blockIndices3 t
  obtain ⟨p, q, rfl⟩ : ∃ (p : Fin 5000) (q : Fin 128), j = ix2 p q := ⟨j 0, j 1, eq_ix2 j⟩
  have ht : t.val < grid3.N := t.isLt
  rw [N_3] at ht
  have hr : 5000 * t.val + p.val < 100000 := by omega
  rw [View.read_apply]
  have hemb : ((cfg3.win 2).blk t).view.emb (ix2 p q) = ix2 (⟨5000 * t.val + p.val, hr⟩ : Fin 100000) q := by
    funext a; apply Fin.ext
    match a with
    | ⟨0, _⟩ => show win3_2.index t (0 : Fin 2) * 5000 + 1 * p.val = 5000 * t.val + p.val; rw [e4]; omega
    | ⟨1, _⟩ => show win3_2.index t (1 : Fin 2) * 128 + 1 * q.val = q.val; rw [e5]; omega
  show k3_pay1 (F := Ideal) (iblk3 V c 0 t) (iblk3 V c 1 t) (ix2 p q) = Cert.Gcn.proj (V c main_v37) (V c main_arg9) (((cfg3.win 2).blk t).view.emb (ix2 p q))
  rw [hemb]
  exact blockProduct_eq_proj3 (V c main_v37) (V c main_arg9) (iblk3 V c 0 t) (iblk3 V c 1 t) p q ⟨5000 * t.val + p.val, hr⟩
    (fun k => featureBlock3 V c t (ix2 p k) (ix2 (⟨5000 * t.val + p.val, hr⟩ : Fin 100000) k) rfl rfl) (fun k => weightBlock3 V c t (ix2 k q))

/-- An index of the output array lies in point `t`'s block iff each coordinate lies in the block's range on its axis. -/
theorem mem_block3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v38).slice (win3_2.rect t)).set ↔ _
  rw [View.set_slice_whole, Rect.mem_set_unit]
  exact Iff.rfl

/-- The twenty row blocks tile the output: row `r` lies in the block of point `r / 5000`, which writes back. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 := ⟨⟨(i 0).val / 5000, by show _ < grid3.N; omega⟩, rfl⟩
  obtain ⟨-, -, -, -, e4, e5⟩ := blockIndices3 t
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the output array is `h · W` at every index, `h` and `W` the feature array and the weight matrix
    as the region finds them. -/
theorem final3 (c : Dev nD) : (dat3 (F := Ideal) V c).arrAt 2 cfg3.N = Cert.Gcn.proj (V c main_v37) (V c main_arg9) :=
  (dat3 (F := Ideal) V c).arrAt_eq_of_cover 2 (Cert.Gcn.proj (V c main_v37) (V c main_arg9)) (fun t _ => flushed3 V c t) covered3

end Cert.KernelIdeal.RegionValue

end
-- ==== Proof.Region4.lean ====
/-
  The finishing step of the second graph-convolution layer, as one function of whole arrays.

  The step runs over 20 grid points.  Point `t` reads rows `5000 t … 5000 t + 4999` of the aggregate (`[100000, 128]`)
  and of the node weights (`[100000, 1]`), reads the bias row (`[1, 128]`) whole, and writes the same rows of the
  output.  Entry `(p, q)` of what it writes is `max (agg (p, q) · d (p, 0) + b (0, q)) 0`: the weight column is
  repeated along the 128 features, the bias row along the 5000 rows.  Since entry `(r, q)` of the output depends only
  on row `r` of the aggregate and the weights and on column `q` of the bias, and the 20 row blocks tile the 100000
  rows, the output array ends holding `Cert.Gcn.scaleBiasRelu` of the three arrays as the step finds them.
-/
import proofs.«113610_j1984274891289_2_alg».proof.Proof.Gen.KernelIdeal.Frame
import proofs.«113610_j1984274891289_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at an index -/

/-- A column `[a, 1]` broadcast to `[a, b]` reads, at `(p, q)`, the column's entry in row `p`. -/
theorem broadcastTo_column_apply4 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body at entry `(p, q)` of its block: the aggregate times the row's weight, plus the column's bias, clamped at zero. -/
theorem payload4_apply (x0 : Vec Ideal S5000x128 .f32) (x1 : Vec Ideal S5000x1 .f32) (x2 : Vec Ideal S1x128 .f32)
    (p : Fin 5000) (q : Fin 128) :
    k4_pay1 x0 x1 x2 (ix2 p q) = max (x0 (ix2 p q) * x1 (ix2 p (0 : Fin 1)) + x2 (ix2 (0 : Fin 1) q)) 0 := by
  unfold k4_pay1
  simp only [shapeCast_self]
  rw [maximumf_apply, addf_apply, mulf_apply, broadcast_apply, broadcastTo_column_apply4, broadcastTo_1b_ab_apply]
  exact congrArg (max _) Ideal.ofBits_zero_f32

/-- If the three blocks the body loads are the rows of the arrays `agg`, `d`, `b` that the output block's
    entries belong to (`e y` is where entry `y` of the output block sits in the array), the body's result at `y` is the
    layer's finishing step at `e y`. -/
theorem payload4_block (agg : S100000x128.Idx → EReal) (d : S100000x1.Idx → EReal) (b : S1x128.Idx → EReal)
    (x0 : Vec Ideal S5000x128 .f32) (x1 : Vec Ideal S5000x1 .f32) (x2 : Vec Ideal S1x128 .f32)
    (e : S5000x128.Idx → S100000x128.Idx)
    (h0 : ∀ y : S5000x128.Idx, x0 y = agg (e y))
    (h1 : ∀ y : S5000x128.Idx, x1 (ix2 (y 0 : Fin 5000) (0 : Fin 1)) = d (ix2 (e y 0 : Fin 100000) (0 : Fin 1)))
    (h2 : ∀ y : S5000x128.Idx, x2 (ix2 (0 : Fin 1) (y 1 : Fin 128)) = b (ix2 (0 : Fin 1) (e y 1 : Fin 128)))
    (y : S5000x128.Idx) : k4_pay1 x0 x1 x2 y = Cert.Gcn.scaleBiasRelu agg d b (e y) := by
  obtain ⟨p, q, rfl⟩ : ∃ (p : Fin 5000) (q : Fin 128), y = ix2 p q := ⟨y 0, y 1, eq_ix2 y⟩
  rw [payload4_apply]
  show max (x0 (ix2 p q) * x1 (ix2 p (0 : Fin 1)) + x2 (ix2 (0 : Fin 1) q)) 0
    = max (agg (e (ix2 p q)) * d (ix2 (e (ix2 p q) 0 : Fin 100000) (0 : Fin 1)) + b (ix2 (0 : Fin 1) (e (ix2 p q) 1 : Fin 128))) 0
  rw [h0 (ix2 p q), show x1 (ix2 p (0 : Fin 1)) = _ from h1 (ix2 p q), show x2 (ix2 (0 : Fin 1) q) = _ from h2 (ix2 p q)]

/-! ## From blocks to the array -/

theorem zeroOffsets4 : (![0, 0] : Fin 2 → Nat) = fun _ => 0 := funext fun a => by fin_cases a <;> rfl

/-- The index maps over the grid: point `t` takes row block `t` of the aggregate, of the weights and of the output,
    and the one block of the bias row. -/
theorem blockIndex4 : ∀ t : Fin cfg4.N,
    win4_3.index t (0 : Fin 2) = t.val ∧ win4_3.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- What point `t` writes back is block `t` of the layer's finishing step applied to the arrays as the region finds them. -/
theorem flushed4_eq (c : Dev nD) (t : Fin cfg4.N) :
    (dat4 V c).flushed 3 t = ((cfg4.win 3).blk t).view.read (Elt Ideal)
      (Cert.Gcn.scaleBiasRelu (V c main_v53) (V c main_v54) (V c main_v55)) := by
  show (cfg4.win 3).cut (grid4.coords t) ((dat4 V c).after 3 t) = _
  rw [after4_3]
  unfold out4_3
  rw [View.canon_unit_zero zeroOffsets4]
  simp only [View.ld_unit_zero (S := S5000x128) zeroOffsets4, View.ld_unit_zero (S := S5000x1) zeroOffsets4,
    View.ld_unit_zero (S := S1x128) zeroOffsets4]
  obtain ⟨e30, e31, e00, e01, e10, e11, e20, e21⟩ := blockIndex4 t
  funext j
  show k4_pay1 (iblk4 V c 0 t) (iblk4 V c 1 t) (iblk4 V c 2 t) j
    = Cert.Gcn.scaleBiasRelu (V c main_v53) (V c main_v54) (V c main_v55) (((cfg4.win 3).blk t).view.emb j)
  refine payload4_block (V c main_v53) (V c main_v54) (V c main_v55) (iblk4 V c 0 t) (iblk4 V c 1 t) (iblk4 V c 2 t)
    (((cfg4.win 3).blk t).view.emb) (fun y => ?_) (fun y => ?_) (fun y => ?_) j
  · -- the aggregate's block is the output block's rows and columns
    show V c main_v53 (((cfg4.win 0).blk t).view.emb y) = V c main_v53 (((cfg4.win 3).blk t).view.emb y)
    have h : ((cfg4.win 0).blk t).view.emb y = ((cfg4.win 3).blk t).view.emb y := by
      funext a; apply Fin.ext
      match a with
      | ⟨0, _⟩ => show win4_0.index t (0 : Fin 2) * 5000 + 1 * (y 0).val = win4_3.index t (0 : Fin 2) * 5000 + 1 * (y 0).val; omega
      | ⟨1, _⟩ => show win4_0.index t (1 : Fin 2) * 128 + 1 * (y 1).val = win4_3.index t (1 : Fin 2) * 128 + 1 * (y 1).val; omega
    exact congrArg (V c main_v53) h
  · -- the weights' block is the output block's rows, in the one column
    show V c main_v54 (((cfg4.win 1).blk t).view.emb (ix2 (y 0 : Fin 5000) (0 : Fin 1)))
      = V c main_v54 (ix2 ((((cfg4.win 3).blk t).view.emb y) 0 : Fin 100000) (0 : Fin 1))
    have h : ((cfg4.win 1).blk t).view.emb (ix2 (y 0 : Fin 5000) (0 : Fin 1))
        = ix2 ((((cfg4.win 3).blk t).view.emb y) 0 : Fin 100000) (0 : Fin 1) := by
      funext a; apply Fin.ext
      match a with
      | ⟨0, _⟩ => show win4_1.index t (0 : Fin 2) * 5000 + 1 * (y 0).val = win4_3.index t (0 : Fin 2) * 5000 + 1 * (y 0).val; omega
      | ⟨1, _⟩ => show win4_1.index t (1 : Fin 2) * 1 + 1 * 0 = 0; omega
    exact congrArg (V c main_v54) h
  · -- the bias row's one block is the whole row
    show V c main_v55 (((cfg4.win 2).blk t).view.emb (ix2 (0 : Fin 1) (y 1 : Fin 128)))
      = V c main_v55 (ix2 (0 : Fin 1) ((((cfg4.win 3).blk t).view.emb y) 1 : Fin 128))
    have h : ((cfg4.win 2).blk t).view.emb (ix2 (0 : Fin 1) (y 1 : Fin 128))
        = ix2 (0 : Fin 1) ((((cfg4.win 3).blk t).view.emb y) 1 : Fin 128) := by
      funext a; apply Fin.ext
      match a with
      | ⟨0, _⟩ => show win4_2.index t (0 : Fin 2) * 1 + 1 * 0 = 0; omega
      | ⟨1, _⟩ => show win4_2.index t (1 : Fin 2) * 128 + 1 * (y 1).val = win4_3.index t (1 : Fin 2) * 128 + 1 * (y 1).val; omega
    exact congrArg (V c main_v55) h

/-- An index of the array is in point `t`'s block iff each coordinate is in the block's range on its axis. -/
theorem mem_block4 (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v56).slice (win4_3.rect t)).set ↔ _
  rw [View.set_slice_whole, Rect.mem_set_unit]
  exact Iff.rfl

/-- Every entry of the array is in some point's block: row `r` is in the block of point `r / 5000`. -/
theorem covered4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  let t : Fin cfg4.N := ⟨(i 0).val / 5000, by omega⟩
  have ht : t.val = (i 0).val / 5000 := rfl
  obtain ⟨e30, e31, -⟩ := blockIndex4 t
  refine ⟨t, flush4_3 t, ?_⟩
  rw [mem_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the region: the layer's finishing step applied to the three arrays the region reads,
    as the region finds them. -/
theorem final4 (c : Dev nD) : (dat4 (F := Ideal) V c).arrAt 3 cfg4.N
    = Cert.Gcn.scaleBiasRelu (V c main_v53) (V c main_v54) (V c main_v55) :=
  (dat4 V c).arrAt_eq_of_cover 3 (Cert.Gcn.scaleBiasRelu (V c main_v53) (V c main_v54) (V c main_v55))
    (fun t _ => flushed4_eq V c t) covered4

end Cert.KernelIdeal.RegionValue

end
-- ==== Proof.KernelRun.lean ====
/-
  The idealized kernel's run with its result named.

  @main is ten segments: stretches of host operations and five kernel regions.  The generated frame follows the
  TensorCore's buffer contents from boundary to boundary (`Gen.W0` … `Gen.W10`) and reads the ARGUMENTS back at the
  last one.  Here the same run is read once more at the RESULT buffer: after every weakly fair execution the
  result holds what the last boundary's contents `Gen.W10` say, and the arguments are as launched.
-/
import proofs.«113610_j1984274891289_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v56) = W10 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v56 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.KernelModel.lean ====
/-
  The idealized kernel's host stretches, named.

  Between its five kernel regions the program runs plain array operations: it lists the two ends of every edge
  (`rowEnds`, `colEnds`: the given edges followed by one loop per node), counts degrees (`degree`), turns them into
  node weights (`weight`), and, once per layer, scales the projected rows by the sender's weight, gathers them along
  the edges and adds them up at the receivers (`aggregate`).  The regions are the dense pieces of the specification:
  a layer is `scaleBiasRelu` of the aggregate, the receiver's weight and the bias (`layer`), and the whole program
  is two layers over a linear map of the node features (`result`).
-/
import proofs.«113610_j1984274891289_2_alg».proof.Proof.Gen.KernelIdeal
import proofs.«113610_j1984274891289_2_alg».proof.Proof.Spec
import Idealize.ShloMosaic.PureOps.Ideal

noncomputable section

namespace Cert.KernelIdeal.Model

open Cert.KernelIdeal Cert.KernelIdeal.Gen Idealize.ShloMosaic Idealize.ShloMosaic.TcCoe

/-- The sending end of every edge: row 0 of the edge list, then every node once more (its own loop). -/
def rowEnds (x1 : IVec S2x1600000 32) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The receiving end of every edge: row 1 of the edge list, then every node once more (its own loop). -/
def colEnds (x1 : IVec S2x1600000 32) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A node's degree: one for every edge that names it as receiver (a receiver outside the node range counts nowhere). -/
def degree (x1 : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (colEnds x1)) (broadcastInDim S1700000 ![] bcast_S_S1700000 (constant S_ .f32 0x3F800000#32))

/-- A node's weight: the inverse square root of its degree raised to at least one, where the degree is positive; zero elsewhere. -/
def weight (x1 : IVec S2x1600000 32) : FVec Ideal S100000 .f32 :=
  select (cmpf (F := Ideal) .ogt (degree x1) (broadcastInDim S100000 ![] bcast_S_S100000 (constant S_ .f32 0x00000000#32))) (Host.rsqrt (maximumf (degree x1) (broadcastInDim S100000 ![] bcast_S_S100000 (constant S_ .f32 0x3F800000#32)))) (broadcastInDim S100000 ![] bcast_S_S100000 (id (constant S_ .f32 0x00000000#32)))

/-- A list of edge ends as a column of gather start words: a negative word is moved up by the node count first. -/
def startCol (a : IVec S1700000 32) : IVec S1700000x1 32 :=
  broadcastInDim S1700000x1 ![0] bcast_S1700000_S1700000x1_0 (select (cmpi .slt a (broadcastInDim S1700000 ![] bcast_S_S1700000 (constantI S_ 32 0#32))) (addi a (broadcastInDim S1700000 ![] bcast_S_S1700000 (constantI S_ 32 100000#32))) a)

/-- One layer's sum of messages: the projected rows, each scaled by its own node's weight, gathered at the sending
    ends and added up at the receiving ends. -/
def aggregate (dis : FVec Ideal S100000 .f32) (row col : IVec S1700000 32) (hp : FVec Ideal S100000x128 .f32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (extf .f32 (Host.gather gather_S100000x128_S1700000x1_S1700000x128_1_0_n_n_0_1_1128 (truncf .bf16 (mulf hp (broadcastInDim S100000x128 ![0, 1] bcast_S100000x1_S100000x128_0_1 (broadcastInDim S100000x1 ![0] bcast_S100000_S100000x1_0 dis))) bitsLt_bf16_f32) (startCol row)) bitsLt_bf16_f32)

/-- One layer: the aggregate times the receiver's weight, plus the bias, clamped at zero. -/
def layer (dis : FVec Ideal S100000 .f32) (row col : IVec S1700000 32) (hp : FVec Ideal S100000x128 .f32) (b : FVec Ideal S128 .f32) : FVec Ideal S100000x128 .f32 :=
  Cert.Gcn.scaleBiasRelu (aggregate dis row col hp) (shapeCast S100000x1 dis shapeCasts_S100000_S100000x1) (shapeCast S1x128 b shapeCasts_S128_S1x128)

/-- The program's result as a function of its arguments: two layers over `x · Wn + bn`. -/
def result (x0 : FVec Ideal S100000x32 .f32) (x1 : IVec S2x1600000 32) (x3 : FVec Ideal S32x128 .f32) (x4 : FVec Ideal S128 .f32)
    (x7 : FVec Ideal S128x128 .f32) (x8 : FVec Ideal S128 .f32) (x9 : FVec Ideal S128x128 .f32) (x10 : FVec Ideal S128 .f32) : FVec Ideal S100000x128 .f32 :=
  layer (weight x1) (rowEnds x1) (colEnds x1)
    (Cert.Gcn.proj (layer (weight x1) (rowEnds x1) (colEnds x1)
      (Cert.Gcn.proj (Cert.Gcn.linear x0 x3 (shapeCast S1x128 x4 shapeCasts_S128_S1x128)) x7) x8) x9) x10

end Cert.KernelIdeal.Model

end
-- ==== Proof.KernelValue.lean ====
/-
  The idealized kernel's result, read off its run.

  The run's last boundary holds the result as the fifth region's output array.  Walking back: that region turns
  the second aggregate, the weights and a bias into the result; the aggregate is a host stretch over the fourth
  region's product; and so on down to the launch memory.  A buffer that no later operation and no region's
  write-back touches (the edge ends, the weights, the arguments) holds at every later boundary what it held when
  it was written.  Each region's output array is taken as a hypothesis here (`h0` … `h4`: the region's whole-array
  function of the arrays it finds on entry); the five closed forms are proved in the region modules.
-/
import proofs.«113610_j1984274891289_2_alg».proof.Proof.KernelRun
import proofs.«113610_j1984274891289_2_alg».proof.Proof.KernelModel
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic Idealize.SL.Sem Idealize.ShloMosaic.StableHlo

/-- No operation of a stretch writes the buffer. -/
macro "not_written " ops:ident : term => `(List.forall_iff_forall_mem.mp (by
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The host stretches, read from any contents `W` -/

section Reads
variable (W : Valuation τ sig (Elt Ideal))

set_option maxHeartbeats 4000000 in
theorem read_rowEnds : StableHlo.after hostOps0_1 (StableHlo.after hostOps0 W) (Proc.devRef .tc main_v5) = Model.rowEnds (W (Proc.devRef .tc main_arg1)) := by
  after_results_simp <;> rfl
set_option maxHeartbeats 4000000 in
theorem read_colEnds : StableHlo.after hostOps0_1 (StableHlo.after hostOps0 W) (Proc.devRef .tc main_v6) = Model.colEnds (W (Proc.devRef .tc main_arg1)) := by
  after_results_simp <;> rfl
set_option maxHeartbeats 4000000 in
/-- Where the degree is positive. -/
theorem read_positive : StableHlo.after hostOps0 W (Proc.devRef .tc main_v12)
    = cmpf (F := Ideal) .ogt (Model.degree (W (Proc.devRef .tc main_arg1))) (broadcastInDim S100000 ![] bcast_S_S100000 (constant S_ .f32 0x00000000#32)) := by
  after_results_simp <;> rfl
set_option maxHeartbeats 4000000 in
/-- The inverse square root of the degree raised to at least one. -/
theorem read_rsqrt : StableHlo.after hostOps0 W (Proc.devRef .tc main_v15)
    = Host.rsqrt (maximumf (Model.degree (W (Proc.devRef .tc main_arg1))) (broadcastInDim S100000 ![] bcast_S_S100000 (constant S_ .f32 0x3F800000#32))) := by
  after_results_simp <;> rfl
theorem read_zero : StableHlo.after hostOps0 W (Proc.devRef .tc main_cst_3) = constant (F := Ideal) S_ .f32 0x00000000#32 := by
  after_results_simp <;> rfl
/-- The weights choose between the two, by the comparison. -/
theorem read_select : StableHlo.after hostOps0_1 W (Proc.devRef .tc main_v16)
    = select (W (Proc.devRef .tc main_v12)) (W (Proc.devRef .tc main_v15)) (broadcastInDim S100000 ![] bcast_S_S100000 (id (W (Proc.devRef .tc main_cst_3)))) := by
  after_results_simp <;> rfl
theorem read_weight : StableHlo.after hostOps0_1 (StableHlo.after hostOps0 W) (Proc.devRef .tc main_v16) = Model.weight (W (Proc.devRef .tc main_arg1)) := by
  rw [read_select, read_positive, read_rsqrt, read_zero]
  rfl
theorem read_bias0 : StableHlo.after hostOps0_2 W (Proc.devRef .tc main_v17) = shapeCast S1x128 (W (Proc.devRef .tc main_arg4)) shapeCasts_S128_S1x128 := by
  after_results_simp <;> rfl
set_option maxHeartbeats 4000000 in
theorem read_agg1 : StableHlo.after hostOps2 W (Proc.devRef .tc main_v34)
    = Model.aggregate (W (Proc.devRef .tc main_v16)) (W (Proc.devRef .tc main_v5)) (W (Proc.devRef .tc main_v6)) (W (Proc.devRef .tc main_v19)) := by
  after_results_simp <;> rfl
theorem read_dcol1 : StableHlo.after hostOps2 W (Proc.devRef .tc main_v35) = shapeCast S100000x1 (W (Proc.devRef .tc main_v16)) shapeCasts_S100000_S100000x1 := by
  after_results_simp <;> rfl
theorem read_bias1 : StableHlo.after hostOps2 W (Proc.devRef .tc main_v36) = shapeCast S1x128 (W (Proc.devRef .tc main_arg8)) shapeCasts_S128_S1x128 := by
  after_results_simp <;> rfl
set_option maxHeartbeats 4000000 in
theorem read_agg2 : StableHlo.after hostOps4 W (Proc.devRef .tc main_v53)
    = Model.aggregate (W (Proc.devRef .tc main_v16)) (W (Proc.devRef .tc main_v5)) (W (Proc.devRef .tc main_v6)) (W (Proc.devRef .tc main_v38)) := by
  after_results_simp <;> rfl
theorem read_dcol2 : StableHlo.after hostOps4 W (Proc.devRef .tc main_v54) = shapeCast S100000x1 (W (Proc.devRef .tc main_v16)) shapeCasts_S100000_S100000x1 := by
  after_results_simp <;> rfl
theorem read_bias2 : StableHlo.after hostOps4 W (Proc.devRef .tc main_v55) = shapeCast S1x128 (W (Proc.devRef .tc main_arg10)) shapeCasts_S128_S1x128 := by
  after_results_simp <;> rfl

end Reads

/-! ## What survives from boundary to boundary -/

section Keep
variable (m : (ℓ : Loc nD τ sig) → Buf (Elt Ideal) ℓ) (ρ : Dev nD → PrngReg) (c : Dev nD) (b : Ref sig .tc)

/-- A buffer the first two stretches do not write holds its launch contents after them. -/
theorem W2_launch (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes) :
    W2 m ρ c (Proc.devRef .tc b) = m ((c : Thread nD τ).loc b) :=
  (StableHlo.after_of_forall_not_mem _ _ h1).trans (StableHlo.after_of_forall_not_mem _ _ h0)

theorem W3_keep (h : ∀ op ∈ (hostOps0_2 : List (HloOp τ sig (Elt Ideal))), Proc.devRef .tc b ∉ op.writes) :
    W3 m ρ c (Proc.devRef .tc b) = W2 m ρ c (Proc.devRef .tc b) :=
  StableHlo.after_of_forall_not_mem _ _ h

/-- Through the first region (not one of its arrays). -/
theorem W4_keep (h : ∀ op ∈ (hostOps0_2 : List (HloOp τ sig (Elt Ideal))), Proc.devRef .tc b ∉ op.writes)
    (r0 : ∀ w, Pipeline.arrRef spec0 w ≠ b) : W4 m ρ c (Proc.devRef .tc b) = W2 m ρ c (Proc.devRef .tc b) :=
  (W4_of_ne m ρ c b r0).trans (W3_keep m ρ c b h)

/-- Through the first two regions. -/
theorem W5_keep (h : ∀ op ∈ (hostOps0_2 : List (HloOp τ sig (Elt Ideal))), Proc.devRef .tc b ∉ op.writes)
    (r0 : ∀ w, Pipeline.arrRef spec0 w ≠ b) (r1 : ∀ w, Pipeline.arrRef spec1 w ≠ b) :
    W5 m ρ c (Proc.devRef .tc b) = W2 m ρ c (Proc.devRef .tc b) :=
  (W5_of_ne m ρ c b r1).trans (W4_keep m ρ c b h r0)

/-- Through the first layer's host stretch and its scale-bias-relu region. -/
theorem W7_keep (h : ∀ op ∈ (hostOps0_2 : List (HloOp τ sig (Elt Ideal))), Proc.devRef .tc b ∉ op.writes)
    (r0 : ∀ w, Pipeline.arrRef spec0 w ≠ b) (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b) : W7 m ρ c (Proc.devRef .tc b) = W2 m ρ c (Proc.devRef .tc b) :=
  (W7_of_ne m ρ c b r2).trans ((StableHlo.after_of_forall_not_mem _ _ h2).trans (W5_keep m ρ c b h r0 r1))

/-- Through the second projection. -/
theorem W8_keep (h : ∀ op ∈ (hostOps0_2 : List (HloOp τ sig (Elt Ideal))), Proc.devRef .tc b ∉ op.writes)
    (r0 : ∀ w, Pipeline.arrRef spec0 w ≠ b) (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b) (r3 : ∀ w, Pipeline.arrRef spec3 w ≠ b) :
    W8 m ρ c (Proc.devRef .tc b) = W2 m ρ c (Proc.devRef .tc b) :=
  (W8_of_ne m ρ c b r3).trans (W7_keep m ρ c b h r0 r1 h2 r2)

end Keep

/-! ## The result -/

section Result
variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x3" => m ((c : Thread nD τ).loc main_arg3)
local notation "x4" => m ((c : Thread nD τ).loc main_arg4)
local notation "x7" => m ((c : Thread nD τ).loc main_arg7)
local notation "x8" => m ((c : Thread nD τ).loc main_arg8)
local notation "x9" => m ((c : Thread nD τ).loc main_arg9)
local notation "x10" => m ((c : Thread nD τ).loc main_arg10)

theorem W2_rowEnds : W2 m ρ c (Proc.devRef .tc main_v5) = Model.rowEnds x1 := read_rowEnds (W0 m ρ c)
theorem W2_colEnds : W2 m ρ c (Proc.devRef .tc main_v6) = Model.colEnds x1 := read_colEnds (W0 m ρ c)
theorem W2_weight : W2 m ρ c (Proc.devRef .tc main_v16) = Model.weight x1 := read_weight (W0 m ρ c)

theorem W5_rowEnds : W5 m ρ c (Proc.devRef .tc main_v5) = Model.rowEnds x1 :=
  (W5_keep m ρ c main_v5 (not_written hostOps0_2) (by decide) (by decide)).trans (W2_rowEnds m ρ c)
theorem W5_colEnds : W5 m ρ c (Proc.devRef .tc main_v6) = Model.colEnds x1 :=
  (W5_keep m ρ c main_v6 (not_written hostOps0_2) (by decide) (by decide)).trans (W2_colEnds m ρ c)
theorem W5_weight : W5 m ρ c (Proc.devRef .tc main_v16) = Model.weight x1 :=
  (W5_keep m ρ c main_v16 (not_written hostOps0_2) (by decide) (by decide)).trans (W2_weight m ρ c)
theorem W8_rowEnds : W8 m ρ c (Proc.devRef .tc main_v5) = Model.rowEnds x1 :=
  (W8_keep m ρ c main_v5 (not_written hostOps0_2) (by decide) (by decide) (not_written hostOps2) (by decide) (by decide)).trans (W2_rowEnds m ρ c)
theorem W8_colEnds : W8 m ρ c (Proc.devRef .tc main_v6) = Model.colEnds x1 :=
  (W8_keep m ρ c main_v6 (not_written hostOps0_2) (by decide) (by decide) (not_written hostOps2) (by decide) (by decide)).trans (W2_colEnds m ρ c)
theorem W8_weight : W8 m ρ c (Proc.devRef .tc main_v16) = Model.weight x1 :=
  (W8_keep m ρ c main_v16 (not_written hostOps0_2) (by decide) (by decide) (not_written hostOps2) (by decide) (by decide)).trans (W2_weight m ρ c)

theorem W3_arg0 : W3 m ρ c (Proc.devRef .tc main_arg0) = x0 :=
  (W3_keep m ρ c main_arg0 (not_written hostOps0_2)).trans (W2_launch m ρ c main_arg0 (not_written hostOps0) (not_written hostOps0_1))
theorem W3_arg3 : W3 m ρ c (Proc.devRef .tc main_arg3) = x3 :=
  (W3_keep m ρ c main_arg3 (not_written hostOps0_2)).trans (W2_launch m ρ c main_arg3 (not_written hostOps0) (not_written hostOps0_1))
theorem W3_bias0 : W3 m ρ c (Proc.devRef .tc main_v17) = shapeCast S1x128 x4 shapeCasts_S128_S1x128 :=
  (read_bias0 (W2 m ρ c)).trans (congrArg (fun z => shapeCast S1x128 z shapeCasts_S128_S1x128)
    (W2_launch m ρ c main_arg4 (not_written hostOps0) (not_written hostOps0_1)))
theorem W4_arg7 : W4 m ρ c (Proc.devRef .tc main_arg7) = x7 :=
  (W4_keep m ρ c main_arg7 (not_written hostOps0_2) (by decide)).trans (W2_launch m ρ c main_arg7 (not_written hostOps0) (not_written hostOps0_1))
theorem W5_arg8 : W5 m ρ c (Proc.devRef .tc main_arg8) = x8 :=
  (W5_keep m ρ c main_arg8 (not_written hostOps0_2) (by decide) (by decide)).trans (W2_launch m ρ c main_arg8 (not_written hostOps0) (not_written hostOps0_1))
theorem W7_arg9 : W7 m ρ c (Proc.devRef .tc main_arg9) = x9 :=
  (W7_keep m ρ c main_arg9 (not_written hostOps0_2) (by decide) (by decide) (not_written hostOps2) (by decide)).trans
    (W2_launch m ρ c main_arg9 (not_written hostOps0) (not_written hostOps0_1))
theorem W8_arg10 : W8 m ρ c (Proc.devRef .tc main_arg10) = x10 :=
  (W8_keep m ρ c main_arg10 (not_written hostOps0_2) (by decide) (by decide) (not_written hostOps2) (by decide) (by decide)).trans
    (W2_launch m ρ c main_arg10 (not_written hostOps0) (not_written hostOps0_1))

variable
  (h0 : ∀ (V : (c : Dev nD) → (b : Ref sig .tc) → Buf (Elt Ideal) ((c : Thread nD τ).loc b)) (c : Dev nD),
    (dat0 (F := Ideal) V c).arrAt 3 cfg0.N = Cert.Gcn.linear (V c main_arg0) (V c main_arg3) (V c main_v17))
  (h1 : ∀ (V : (c : Dev nD) → (b : Ref sig .tc) → Buf (Elt Ideal) ((c : Thread nD τ).loc b)) (c : Dev nD),
    (dat1 (F := Ideal) V c).arrAt 2 cfg1.N = Cert.Gcn.proj (V c main_v18) (V c main_arg7))
  (h2 : ∀ (V : (c : Dev nD) → (b : Ref sig .tc) → Buf (Elt Ideal) ((c : Thread nD τ).loc b)) (c : Dev nD),
    (dat2 (F := Ideal) V c).arrAt 3 cfg2.N = Cert.Gcn.scaleBiasRelu (V c main_v34) (V c main_v35) (V c main_v36))
  (h3 : ∀ (V : (c : Dev nD) → (b : Ref sig .tc) → Buf (Elt Ideal) ((c : Thread nD τ).loc b)) (c : Dev nD),
    (dat3 (F := Ideal) V c).arrAt 2 cfg3.N = Cert.Gcn.proj (V c main_v37) (V c main_arg9))
  (h4 : ∀ (V : (c : Dev nD) → (b : Ref sig .tc) → Buf (Elt Ideal) ((c : Thread nD τ).loc b)) (c : Dev nD),
    (dat4 (F := Ideal) V c).arrAt 3 cfg4.N = Cert.Gcn.scaleBiasRelu (V c main_v53) (V c main_v54) (V c main_v55))

include h0 in
/-- After the first region: the node features' linear map. -/
theorem W4_features : W4 m ρ c (Proc.devRef .tc main_v18) = Cert.Gcn.linear x0 x3 (shapeCast S1x128 x4 shapeCasts_S128_S1x128) := by
  refine (W4_arr m ρ c 3).trans ((h0 (V3 m ρ) c).trans ?_)
  show Cert.Gcn.linear (W3 m ρ c (Proc.devRef .tc main_arg0)) (W3 m ρ c (Proc.devRef .tc main_arg3)) (W3 m ρ c (Proc.devRef .tc main_v17)) = _
  rw [W3_arg0, W3_arg3, W3_bias0]

include h0 h1 in
/-- After the second region: the first projection. -/
theorem W5_proj1 : W5 m ρ c (Proc.devRef .tc main_v19)
    = Cert.Gcn.proj (Cert.Gcn.linear x0 x3 (shapeCast S1x128 x4 shapeCasts_S128_S1x128)) x7 := by
  refine (W5_arr m ρ c 2).trans ((h1 (V4 m ρ) c).trans ?_)
  show Cert.Gcn.proj (W4 m ρ c (Proc.devRef .tc main_v18)) (W4 m ρ c (Proc.devRef .tc main_arg7)) = _
  rw [W4_features m ρ c h0, W4_arg7]

include h0 h1 h2 in
/-- After the third region: the first layer. -/
theorem W7_layer1 : W7 m ρ c (Proc.devRef .tc main_v37)
    = Model.layer (Model.weight x1) (Model.rowEnds x1) (Model.colEnds x1)
        (Cert.Gcn.proj (Cert.Gcn.linear x0 x3 (shapeCast S1x128 x4 shapeCasts_S128_S1x128)) x7) x8 := by
  refine (W7_arr m ρ c 3).trans ((h2 (V6 m ρ) c).trans ?_)
  show Cert.Gcn.scaleBiasRelu (StableHlo.after hostOps2 (W5 m ρ c) (Proc.devRef .tc main_v34))
      (StableHlo.after hostOps2 (W5 m ρ c) (Proc.devRef .tc main_v35)) (StableHlo.after hostOps2 (W5 m ρ c) (Proc.devRef .tc main_v36)) = _
  rw [read_agg1, read_dcol1, read_bias1, W5_weight, W5_rowEnds, W5_colEnds, W5_proj1 m ρ c h0 h1, W5_arg8]
  rfl

include h0 h1 h2 h3 in
/-- After the fourth region: the second projection. -/
theorem W8_proj2 : W8 m ρ c (Proc.devRef .tc main_v38)
    = Cert.Gcn.proj (Model.layer (Model.weight x1) (Model.rowEnds x1) (Model.colEnds x1)
        (Cert.Gcn.proj (Cert.Gcn.linear x0 x3 (shapeCast S1x128 x4 shapeCasts_S128_S1x128)) x7) x8) x9 := by
  refine (W8_arr m ρ c 2).trans ((h3 (V7 m ρ) c).trans ?_)
  show Cert.Gcn.proj (W7 m ρ c (Proc.devRef .tc main_v37)) (W7 m ρ c (Proc.devRef .tc main_arg9)) = _
  rw [W7_layer1 m ρ c h0 h1 h2, W7_arg9]

include h0 h1 h2 h3 h4 in
/-- THE RESULT: the last boundary's contents at the result buffer are the model's `result` of the arguments. -/
theorem W10_result : W10 m ρ c (Proc.devRef .tc main_v56) = Model.result x0 x1 x3 x4 x7 x8 x9 x10 := by
  refine (W10_arr m ρ c 3).trans ((h4 (V9 m ρ) c).trans ?_)
  show Cert.Gcn.scaleBiasRelu (StableHlo.after hostOps4 (W8 m ρ c) (Proc.devRef .tc main_v53))
      (StableHlo.after hostOps4 (W8 m ρ c) (Proc.devRef .tc main_v54)) (StableHlo.after hostOps4 (W8 m ρ c) (Proc.devRef .tc main_v55)) = _
  rw [read_agg2, read_dcol2, read_bias2, W8_weight, W8_rowEnds, W8_colEnds, W8_proj2 m ρ c h0 h1 h2 h3, W8_arg10]
  rfl

end Result

end Cert.KernelIdeal.RunValue

end
-- ==== Proof.RefModel.lean ====
/-
  The idealized reference, named.

  The reference lists the two ends of every edge, counts degrees and forms the node weights exactly as the kernel
  program does (`rowEnds`, `colEnds`, `degree`, `weight`: the same operations).  A layer gathers the projected rows
  at the sending ends, scales each by the product of the two ends' weights, adds them up at the receiving ends,
  adds the bias and clamps at zero (`layer`); the result is two layers over `x · Wn + bn`, each projection a
  `dot_general` (`result`).
-/
import proofs.«113610_j1984274891289_2_alg».proof.Proof.Gen.ReferenceIdeal
import Idealize.ShloMosaic.PureOps.Ideal

noncomputable section

namespace Cert.ReferenceIdeal.Model

open Cert.ReferenceIdeal Cert.ReferenceIdeal.Gen Idealize.ShloMosaic Idealize.ShloMosaic.TcCoe Idealize.SL.Sem

/-- The sending end of every edge: row 0 of the edge list, then every node once more (its own loop). -/
def rowEnds (x1 : IVec S2x1600000 32) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The receiving end of every edge: row 1 of the edge list, then every node once more (its own loop). -/
def colEnds (x1 : IVec S2x1600000 32) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A node's degree: one for every edge that names it as receiver (a receiver outside the node range counts nowhere). -/
def degree (x1 : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (colEnds x1)) (broadcastInDim S1700000 ![] bcast_S_S1700000 (constant S_ .f32 0x3F800000#32))

/-- A node's weight: the inverse square root of its degree raised to at least one, where the degree is positive; zero elsewhere. -/
def weight (x1 : IVec S2x1600000 32) : FVec Ideal S100000 .f32 :=
  select (cmpf (F := Ideal) .ogt (degree x1) (broadcastInDim S100000 ![] bcast_S_S100000 (constant S_ .f32 0x00000000#32))) (Host.rsqrt (maximumf (degree x1) (broadcastInDim S100000 ![] bcast_S_S100000 (constant S_ .f32 0x3F800000#32)))) (broadcastInDim S100000 ![] bcast_S_S100000 (id (constant S_ .f32 0x00000000#32)))

/-- A list of edge ends as a column of gather start words: a negative word is moved up by the node count first. -/
def startCol (a : IVec S1700000 32) : IVec S1700000x1 32 :=
  broadcastInDim S1700000x1 ![0] bcast_S1700000_S1700000x1_0 (select (cmpi .slt a (broadcastInDim S1700000 ![] bcast_S_S1700000 (constantI S_ 32 0#32))) (addi a (broadcastInDim S1700000 ![] bcast_S_S1700000 (constantI S_ 32 100000#32))) a)

/-- One layer: rows gathered at the sending ends, each scaled by the product of its two ends' weights, added up at
    the receiving ends; plus the bias, clamped at zero. -/
def layer (dis : FVec Ideal S100000 .f32) (row col : IVec S1700000 32) (hp : FVec Ideal S100000x128 .f32) (b : FVec Ideal S128 .f32) : FVec Ideal S100000x128 .f32 :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 hp (startCol row)) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 dis (startCol row)) (Host.gather gather_S100000_S1700000x1_S1700000_n_0_n_n_0_1_1 dis (startCol col))))))) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The node features' linear map: `x · Wn + bn`. -/
def features (x0 : FVec Ideal S100000x32 .f32) (x3 : FVec Ideal S32x128 .f32) (x4 : FVec Ideal S128 .f32) : FVec Ideal S100000x128 .f32 :=
  addf (Host.dotGeneral dot_S100000x32_S32x128_S100000x128_1_0_0_1_n_n none x0 x3) (broadcastInDim S100000x128 ![0, 1] bcast_S1x128_S100000x128_0_1 (broadcastInDim S1x128 ![1] bcast_S128_S1x128_1 x4))

/-- The reference's result as a function of its arguments. -/
def result (x0 : FVec Ideal S100000x32 .f32) (x1 : IVec S2x1600000 32) (x3 : FVec Ideal S32x128 .f32) (x4 : FVec Ideal S128 .f32)
    (x7 : FVec Ideal S128x128 .f32) (x8 : FVec Ideal S128 .f32) (x9 : FVec Ideal S128x128 .f32) (x10 : FVec Ideal S128 .f32) : FVec Ideal S100000x128 .f32 :=
  layer (weight x1) (rowEnds x1) (colEnds x1)
    (Host.dotGeneral dot_S100000x128_S128x128_S100000x128_1_0_0_1_n_n none (layer (weight x1) (rowEnds x1) (colEnds x1)
      (Host.dotGeneral dot_S100000x128_S128x128_S100000x128_1_0_0_1_n_n none (features x0 x3 x4) x7) x8) x9) x10

end Cert.ReferenceIdeal.Model

end
-- ==== Proof.RefValue.lean ====
/-
  The term the reference's run ends at is the reference model's `result` of the launch contents of its arguments:
  the model's definitions unfold to the run's composed term, operation for operation.
-/
import proofs.«113610_j1984274891289_2_alg».proof.Proof.RefRun
import proofs.«113610_j1984274891289_2_alg».proof.Proof.RefModel

noncomputable section

namespace Cert.ReferenceIdeal.Model

open Cert.ReferenceIdeal Cert.ReferenceIdeal.Gen Idealize.ShloMosaic Idealize.ShloMosaic.TcCoe Idealize.SL.Sem

set_option maxRecDepth 16384 in
/-- The term the reference's run ends at is `result` of the launch contents of its arguments. -/
theorem res_eq (m : (ℓ : Loc nD τ sig) → Buf (Elt Ideal) ℓ) (c : Dev nD) :
    Cert.ReferenceIdeal.ValueP.res_main_v90 (F := Ideal) m c
      = result (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v90 result layer features weight degree startCol rowEnds colEnds
  rfl

end Cert.ReferenceIdeal.Model

end
-- ==== Proof.RefDense.lean ====
/-
  The dense pieces of the reference program, read as the mathematics of the specification: its two matrix products are
  `proj` and `linear`, and the weight it gives a node is a nonnegative real number.
-/
import proofs.«113610_j1984274891289_2_alg».proof.Proof.Gen.ReferenceIdeal
import proofs.«113610_j1984274891289_2_alg».proof.Proof.Spec
import proofs.«113610_j1984274891289_2_alg».proof.Proof.Index
import Idealize.ShloMosaic.Lib.Pipeline.Value
import Idealize.ShloMosaic.Lib.ValueIdx
import Idealize.ShloMosaic.PureOps.Ideal.Laws

noncomputable section

open scoped BigOperators

namespace Cert.ReferenceIdeal.Dense

open Cert.ReferenceIdeal Cert.ReferenceIdeal.Gen Idealize.ShloMosaic Idealize.ShloMosaic.TcCoe Idealize.ShloMosaic.ValueIdx

/-- Row coordinate of the left operand index: the output's row. -/
theorem proj_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
/-- Column coordinate of the left operand index: the contraction index. -/
theorem proj_lhs1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- Row coordinate of the right operand index: the contraction index. -/
theorem proj_rhs0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- Column coordinate of the right operand index: the output's column. -/
theorem proj_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The [100000,128] × [128,128] product read at (r, n): the sum over k of l (r, k) · r (k, n). -/
theorem dotGeneral_proj_apply (l : FVec Ideal S100000x128 .f32) (r : FVec Ideal S128x128 .f32) (i : S100000x128.Idx) :
    Host.dotGeneral dot_S100000x128_S128x128_S100000x128_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k :=
    funext fun a => Fin.ext (by
      match a with
      | ⟨0, _⟩ => exact proj_lhs0 _ _
      | ⟨1, _⟩ => exact (proj_lhs1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) :=
    funext fun a => Fin.ext (by
      match a with
      | ⟨0, _⟩ => exact (proj_rhs0 _ _).trans hk
      | ⟨1, _⟩ => exact proj_rhs1 _ _)
  rw [el, er]
  rfl

/-- The [100000,128] × [128,128] product of the reference program is `proj`. -/
theorem dotGeneral_proj (h : FVec Ideal S100000x128 .f32) (W : FVec Ideal S128x128 .f32) :
    Host.dotGeneral dot_S100000x128_S128x128_S100000x128_1_0_0_1_n_n none h W = Cert.Gcn.proj h W := by
  funext i
  rw [dotGeneral_proj_apply]
  rfl

/-- Row coordinate of the left operand index: the output's row. -/
theorem lin_lhs0 (i : S100000x128.Idx) (q : dot_S100000x32_S32x128_S100000x128_1_0_0_1_n_n.contr.Idx) :
    (dot_S100000x32_S32x128_S100000x128_1_0_0_1_n_n.lhsIdx i q 0).val = (i 0).val := by
  unfold DotDims.lhsIdx
  rw [dif_neg (show ¬(0 : Fin S100000x32.rank) ∈ dot_S100000x32_S32x128_S100000x128_1_0_0_1_n_n.lhsBatch by decide),
    dif_pos (show (0 : Fin S100000x32.rank) ∈ dot_S100000x32_S32x128_S100000x128_1_0_0_1_n_n.lhsNonContracting by decide)]
  rfl
/-- Column coordinate of the left operand index: the contraction index. -/
theorem lin_lhs1 (i : S100000x128.Idx) (q : dot_S100000x32_S32x128_S100000x128_1_0_0_1_n_n.contr.Idx) :
    (dot_S100000x32_S32x128_S100000x128_1_0_0_1_n_n.lhsIdx i q 1).val = (q ⟨0, by decide⟩).val :=
  dot_S100000x32_S32x128_S100000x128_1_0_0_1_n_n.lhsIdx_val_of_single rfl i q
/-- Row coordinate of the right operand index: the contraction index. -/
theorem lin_rhs0 (i : S100000x128.Idx) (q : dot_S100000x32_S32x128_S100000x128_1_0_0_1_n_n.contr.Idx) :
    (dot_S100000x32_S32x128_S100000x128_1_0_0_1_n_n.rhsIdx i q 0).val = (q ⟨0, by decide⟩).val :=
  dot_S100000x32_S32x128_S100000x128_1_0_0_1_n_n.rhsIdx_val_of_single rfl i q
/-- Column coordinate of the right operand index: the output's column. -/
theorem lin_rhs1 (i : S100000x128.Idx) (q : dot_S100000x32_S32x128_S100000x128_1_0_0_1_n_n.contr.Idx) :
    (dot_S100000x32_S32x128_S100000x128_1_0_0_1_n_n.rhsIdx i q 1).val = (i 1).val := by
  unfold DotDims.rhsIdx
  rw [dif_neg (show ¬(1 : Fin S32x128.rank) ∈ dot_S100000x32_S32x128_S100000x128_1_0_0_1_n_n.rhsBatch by decide),
    dif_pos (show (1 : Fin S32x128.rank) ∈ dot_S100000x32_S32x128_S100000x128_1_0_0_1_n_n.rhsNonContracting by decide)]
  rfl

/-- The [100000,32] × [32,128] product read at (r, n): the sum over k of l (r, k) · r (k, n). -/
theorem dotGeneral_linear_apply (l : FVec Ideal S100000x32 .f32) (r : FVec Ideal S32x128 .f32) (i : S100000x128.Idx) :
    Host.dotGeneral dot_S100000x32_S32x128_S100000x128_1_0_0_1_n_n none l r i = ∑ k : Fin 32, l (ix2 (i 0) k) * r (ix2 k (i 1)) := by
  simp only [Host.dotGeneral]
  rw [Ideal.dotGeneral_apply, ← Equiv.sum_comp (ValueIdx.contrEquiv1 dot_S100000x32_S32x128_S100000x128_1_0_0_1_n_n 32 rfl rfl).symm]
  refine Finset.sum_congr rfl fun k _ => ?_
  have hk := ValueIdx.contrEquiv1_symm_val dot_S100000x32_S32x128_S100000x128_1_0_0_1_n_n 32 rfl rfl k
  have el : dot_S100000x32_S32x128_S100000x128_1_0_0_1_n_n.lhsIdx i ((ValueIdx.contrEquiv1 dot_S100000x32_S32x128_S100000x128_1_0_0_1_n_n 32 rfl rfl).symm k) = ix2 (i 0) k :=
    funext fun a => Fin.ext (by
      match a with
      | ⟨0, _⟩ => exact lin_lhs0 _ _
      | ⟨1, _⟩ => exact (lin_lhs1 _ _).trans hk)
  have er : dot_S100000x32_S32x128_S100000x128_1_0_0_1_n_n.rhsIdx i ((ValueIdx.contrEquiv1 dot_S100000x32_S32x128_S100000x128_1_0_0_1_n_n 32 rfl rfl).symm k) = ix2 k (i 1) :=
    funext fun a => Fin.ext (by
      match a with
      | ⟨0, _⟩ => exact (lin_rhs0 _ _).trans hk
      | ⟨1, _⟩ => exact lin_rhs1 _ _)
  rw [el, er]
  rfl

/-- The bias row broadcast to every node, read at (r, n): entry n of the bias. -/
theorem bias_apply (x4 : FVec Ideal S128 .f32) (i : S100000x128.Idx) :
    (broadcastInDim S100000x128 ![0, 1] bcast_S1x128_S100000x128_0_1
      (broadcastInDim S1x128 ![1] bcast_S128_S1x128_1 x4)) i = x4 (ix1 (i 1)) := by
  rw [broadcastInDim_apply _ bcast_S1x128_S100000x128_0_1 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 x4 (ix2 (0 : Fin 1) (i 1)) (ix1 (i 1)) (fun a => match a with
    | ⟨0, _⟩ => by show (i 1).val = if (128 : Nat) = 1 then 0 else (i 1).val; rw [if_neg (by decide)])

/-- The bias stored as a row [1,128], read at (0, n): entry n of the bias. -/
theorem biasRow_apply (x4 : FVec Ideal S128 .f32) (hc : S128.ShapeCasts S1x128) (n : Fin 128) :
    shapeCast S1x128 x4 hc (ix2 (0 : Fin 1) n) = x4 (ix1 n) := by
  refine shapeCast_apply x4 hc _ _ ?_
  rw [Shape.rowMajor_val_one, Shape.rowMajor_val_two]
  show n.val = 0 * _ + n.val
  omega

/-- The first dense step of the reference program — a [100000,32] × [32,128] product plus the broadcast bias — is
    `linear`. -/
theorem features_linear (x0 : FVec Ideal S100000x32 .f32) (x3 : FVec Ideal S32x128 .f32) (x4 : FVec Ideal S128 .f32)
    (hc : S128.ShapeCasts S1x128) :
    addf (Host.dotGeneral dot_S100000x32_S32x128_S100000x128_1_0_0_1_n_n none x0 x3)
        (broadcastInDim S100000x128 ![0, 1] bcast_S1x128_S100000x128_0_1 (broadcastInDim S1x128 ![1] bcast_S128_S1x128_1 x4))
      = Cert.Gcn.linear x0 x3 (shapeCast S1x128 x4 hc) := by
  funext i
  rw [addf_apply, dotGeneral_linear_apply, bias_apply]
  exact congrArg (fun t => (∑ k : Fin 32, x0 (ix2 (i 0) k) * x3 (ix2 k (i 1))) + t) (biasRow_apply x4 hc (i 1)).symm

/-- The weight the reference program gives a node — the inverse square root of its degree clamped below at 1 where a
    condition bit is set, zero elsewhere — is a nonnegative real number. -/
theorem weight_bound (deg : FVec Ideal S100000 .f32) (cnd : IVec S100000 1) (i : S100000.Idx) :
    0 ≤ (select cnd (Host.rsqrt (maximumf deg (broadcastInDim S100000 ![] bcast_S_S100000 (constant S_ .f32 0x3F800000#32)))) (broadcastInDim S100000 ![] bcast_S_S100000 (id (constant S_ .f32 0x00000000#32)))) i
      ∧ (select cnd (Host.rsqrt (maximumf deg (broadcastInDim S100000 ![] bcast_S_S100000 (constant S_ .f32 0x3F800000#32)))) (broadcastInDim S100000 ![] bcast_S_S100000 (id (constant S_ .f32 0x00000000#32)))) i ≠ ⊤ := by
  rw [select_apply]
  by_cases hc : cnd i = 1#1
  · rw [hc, select_one]
    show 0 ≤ Ideal.rsqrt (max (deg i) (Ideal.ofBits .f32 0x3F800000#32))
      ∧ Ideal.rsqrt (max (deg i) (Ideal.ofBits .f32 0x3F800000#32)) ≠ ⊤
    rw [Cert.Gcn.ofBits_one_f32]
    exact Cert.Gcn.rsqrt_max_one (deg i)
  · rw [eq_zero_of_ne_one hc, select_zero]
    show 0 ≤ Ideal.ofBits .f32 0x00000000#32 ∧ Ideal.ofBits .f32 0x00000000#32 ≠ ⊤
    rw [Ideal.ofBits_zero_f32]
    exact ⟨le_refl _, EReal.zero_ne_top⟩

end Cert.ReferenceIdeal.Dense

end
-- ==== Proof.LayerLaw.lean ====
/-
  One layer of the kernel program equals one layer of the reference.

  Fix node weights `dis` (nonnegative reals), the two lists of edge ends `row` (senders) and `col` (receivers), the
  projected node rows `hp` and a bias `b`.  For a node `r` let `E` be the set of edges whose receiving word reads
  signed as `r` (a scatter-add reads its start words signed and drops the ones outside the array), and for an edge
  `e` let `s e` be the node its sending word names (a gather wraps a negative word by the node count and clamps
  into the node range).  At entry `(r, n)`

    the kernel program has   max ((0 + ∑ e ∈ E, hp (s e, n) · dis (s e)) · dis r + b n) 0,
    the reference has        max ((0 + ∑ e ∈ E, hp (s e, n) · (dis (s e) · dis (t e))) + b n) 0,

  where `t e` is the node the receiving word of `e` names; for `e ∈ E` that node is `r` itself, because a word
  that reads signed as a node number is neither wrapped nor clamped.  The two agree because `dis r` is a nonnegative
  real: multiplication by it distributes over the sum, infinite summands included, and multiplication is associative.
-/
import proofs.«113610_j1984274891289_2_alg».proof.Proof.KernelModel
import proofs.«113610_j1984274891289_2_alg».proof.Proof.RefModel
import proofs.«113610_j1984274891289_2_alg».proof.Proof.Index
import proofs.«113610_j1984274891289_2_alg».proof.Proof.Spec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx
open scoped BigOperators

/-! ## Layout operations read at an index -/

/-- A list `[m]` placed as a column `[m, 1]` reads, at `(e, 0)`, the list at `e`. -/
theorem column_apply {α : Type} {m : ℕ} (hm : m ≠ 1) (h : (⟨1, ![m]⟩ : Shape).BroadcastsInDim ⟨2, ![m, 1]⟩ ![0])
    (a : (⟨1, ![m]⟩ : Shape).Idx → α) (e : Fin m) :
    broadcastInDim ⟨2, ![m, 1]⟩ ![0] h a (ix2 e (0 : Fin 1)) = a (ix1 e) :=
  broadcastInDim_apply _ h a (ix2 e (0 : Fin 1)) (ix1 e) (fun ax => match ax with
    | ⟨0, _⟩ => by show e.val = if m = 1 then 0 else e.val; rw [if_neg hm])

/-- A column `[m, 1]` repeated along `k` columns reads, at `(e, n)`, the column at `(e, 0)`. -/
theorem columnRepeat_apply {α : Type} {m k : ℕ} (hm : m ≠ 1)
    (h : (⟨2, ![m, 1]⟩ : Shape).BroadcastsInDim ⟨2, ![m, k]⟩ ![0, 1])
    (y : (⟨2, ![m, 1]⟩ : Shape).Idx → α) (e : Fin m) (n : Fin k) :
    broadcastInDim ⟨2, ![m, k]⟩ ![0, 1] h y (ix2 e n) = y (ix2 e (0 : Fin 1)) :=
  broadcastInDim_apply _ h y (ix2 e n) (ix2 e (0 : Fin 1)) (fun ax => match ax with
    | ⟨0, _⟩ => by show e.val = if m = 1 then 0 else e.val; rw [if_neg hm]
    | ⟨1, _⟩ => by show 0 = if (1 : Nat) = 1 then 0 else n.val; rw [if_pos rfl])

/-- A list `[k]` placed as a row `[1, k]` reads, at `(0, n)`, the list at `n`. -/
theorem row_apply {α : Type} {k : ℕ} (hk : k ≠ 1) (h : (⟨1, ![k]⟩ : Shape).BroadcastsInDim ⟨2, ![1, k]⟩ ![1])
    (b : (⟨1, ![k]⟩ : Shape).Idx → α) (n : Fin k) :
    broadcastInDim ⟨2, ![1, k]⟩ ![1] h b (ix2 (0 : Fin 1) n) = b (ix1 n) :=
  broadcastInDim_apply _ h b (ix2 (0 : Fin 1) n) (ix1 n) (fun ax => match ax with
    | ⟨0, _⟩ => by show n.val = if k = 1 then 0 else n.val; rw [if_neg hk])

/-- A row `[1, k]` repeated along `m` rows reads, at `(r, n)`, the row at `(0, n)`. -/
theorem rowRepeat_apply {α : Type} {m k : ℕ} (hk : k ≠ 1)
    (h : (⟨2, ![1, k]⟩ : Shape).BroadcastsInDim ⟨2, ![m, k]⟩ ![0, 1])
    (y : (⟨2, ![1, k]⟩ : Shape).Idx → α) (r : Fin m) (n : Fin k) :
    broadcastInDim ⟨2, ![m, k]⟩ ![0, 1] h y (ix2 r n) = y (ix2 (0 : Fin 1) n) :=
  broadcastInDim_apply _ h y (ix2 r n) (ix2 (0 : Fin 1) n) (fun ax => match ax with
    | ⟨0, _⟩ => by show 0 = if (1 : Nat) = 1 then 0 else r.val; rw [if_pos rfl]
    | ⟨1, _⟩ => by show n.val = if k = 1 then 0 else n.val; rw [if_neg hk])

/-- The zero word repeated over any shape is the number zero at every index. -/
theorem zeros_apply {s : Shape} (h : (⟨0, ![]⟩ : Shape).BroadcastsInDim s ![]) (i : s.Idx) :
    broadcastInDim s ![] h (constant (F := Ideal) ⟨0, ![]⟩ .f32 0x00000000#32) i = (0 : EReal) :=
  Ideal.ofBits_zero_f32

/-- A list `[m]` recast as a column `[m, 1]` reads, at `(r, 0)`, the list at `r`. -/
theorem asColumn_apply {α : Type} {m : ℕ} (h : (⟨1, ![m]⟩ : Shape).ShapeCasts ⟨2, ![m, 1]⟩)
    (d : (⟨1, ![m]⟩ : Shape).Idx → α) (r : Fin m) :
    shapeCast ⟨2, ![m, 1]⟩ d h (ix2 r (0 : Fin 1)) = d (ix1 r) :=
  shapeCast_apply d h _ _ (by
    rw [Shape.rowMajor_val_two, Shape.rowMajor_val_one]
    show r.val = r.val * 1 + 0
    omega)

/-- A list `[k]` recast as a row `[1, k]` reads, at `(0, n)`, the list at `n`. -/
theorem asRow_apply {α : Type} {k : ℕ} (h : (⟨1, ![k]⟩ : Shape).ShapeCasts ⟨2, ![1, k]⟩)
    (b : (⟨1, ![k]⟩ : Shape).Idx → α) (n : Fin k) :
    shapeCast ⟨2, ![1, k]⟩ b h (ix2 (0 : Fin 1) n) = b (ix1 n) :=
  shapeCast_apply b h _ _ (by
    rw [Shape.rowMajor_val_two, Shape.rowMajor_val_one]
    show n.val = 0 * k + n.val
    omega)

/-! ## Small congruences on the extended reals (so that every step names both sides) -/

theorem max_zero_congr {u u' z : EReal} (hu : u = u') (hz : z = 0) : max u z = max u' 0 := by rw [hu, hz]

theorem add_congr {a a' b b' : EReal} (ha : a = a') (hb : b = b') : a + b = a' + b' := by rw [ha, hb]

theorem mul_congr {a a' b b' : EReal} (ha : a = a') (hb : b = b') : a * b = a' * b' := by rw [ha, hb]

/-- A zero start plus a sum over a filtered set, compared with the same over an equivalent filter and equal summands. -/
theorem add_sum_filter_congr {ι : Type*} [Fintype ι] {p q : ι → Prop} [DecidablePred p] [DecidablePred q]
    {x : EReal} {f g : ι → EReal} (hx : x = 0) (hpq : ∀ e, p e ↔ q e) (hfg : ∀ e, q e → f e = g e) :
    x + ∑ e ∈ Finset.univ.filter p, f e = 0 + ∑ e ∈ Finset.univ.filter q, g e := by
  rw [hx, Finset.filter_congr (fun e _ => hpq e)]
  exact congrArg (fun t => (0 : EReal) + t) (Finset.sum_congr rfl fun e he => hfg e (Finset.mem_filter.1 he).2)

/-! ## The two index operations, read through the programs' own spelling -/

/-- The row scatter-add as the programs spell it, at `(r, c)`: the operand there plus the sum, over the update rows
    whose start word reads signed as `r`, of update `(e, c)`. -/
theorem scatterAdd_apply (wf : ScatterDims.WF ⟨2, ![100000, 128]⟩ ⟨2, ![1700000, 1]⟩ ⟨2, ![1700000, 128]⟩ [1] [0] [0] 1)
    (x : FVec Ideal ⟨2, ![100000, 128]⟩ .f32) (idx : IVec ⟨2, ![1700000, 1]⟩ 32)
    (upd : FVec Ideal ⟨2, ![1700000, 128]⟩ .f32) (i : (⟨2, ![100000, 128]⟩ : Shape).Idx) :
    Host.scatterAdd (Cert.Gcn.rowScatterDims wf) x idx upd i =
      x i + ∑ e ∈ Finset.univ.filter (fun e : Fin 1700000 => (idx (ix2 e (0 : Fin 1))).toInt = ((i 0).val : ℤ)),
        upd (ix2 e (i 1)) :=
  Cert.Gcn.rowScatterAdd_apply wf x idx upd i

/-- Rounding to the narrower format and widening back are the identity on the extended reals: a gather of a rounded
    array, widened, is the gather of the array. -/
theorem widen_gather_round_apply {s si t : Shape} (G : GatherDims s si t) (M : FVec Ideal s .f32) (I : IVec si 32)
    (h : FTy.bf16.bits < FTy.f32.bits) (j : t.Idx) :
    extf .f32 (Host.gather G (truncf .bf16 M h) I) h j = Host.gather G M I j := rfl

/-! ## Edges, and the node a start word names -/

/-- A start word after the wrap-around of negative words: a negative word is moved up by the node count. -/
def wrapWord (v : BitVec 32) : BitVec 32 :=
  Scalar.select (IntOp.cmpi .slt v 0#32) (IntOp.addi v 100000#32) v

/-- The node that entry `e` of a list of edge ends names: the word wrapped, read signed and clamped into the node range. -/
def nodeAt (a : (⟨1, ![1700000]⟩ : Shape).Idx → BitVec 32) (e : Fin 1700000) : Fin 100000 :=
  Cert.Gcn.nodeOf (wrapWord (a (ix1 e)))

/-- The edges whose receiving word reads signed as node `r`: the ones whose message is added at `r`. -/
def edgesInto (col : (⟨1, ![1700000]⟩ : Shape).Idx → BitVec 32) (r : Fin 100000) : Finset (Fin 1700000) :=
  Finset.univ.filter (fun e => (col (ix1 e)).toInt = (r.val : ℤ))

/-- For an edge whose message is added at `r`, the receiving word names `r`: a word that reads signed as a node number
    is not negative, so the wrap-around leaves it alone, and the clamp does too. -/
theorem nodeAt_of_mem (col : (⟨1, ![1700000]⟩ : Shape).Idx → BitVec 32) (r : Fin 100000) (e : Fin 1700000)
    (he : e ∈ edgesInto col r) : nodeAt col e = r := by
  have h : (col (ix1 e)).toInt = (r.val : ℤ) := (Finset.mem_filter.1 he).2
  unfold nodeAt wrapWord
  rw [Cert.Gcn.wrap_of_toInt _ r h]
  exact Cert.Gcn.nodeOf_of_toInt _ r h

/-- The kernel program's column of gather start words, at edge `e`: the wrapped word. -/
theorem kernel_startCol_apply (a : IVec Cert.KernelIdeal.S1700000 32) (e : Fin 1700000) :
    Cert.KernelIdeal.Model.startCol a (ix2 e (0 : Fin 1)) = wrapWord (a (ix1 e)) := by
  unfold Cert.KernelIdeal.Model.startCol
  exact column_apply (by decide) _ _ e

/-- The reference's column of gather start words, at edge `e`: the wrapped word. -/
theorem ref_startCol_apply (a : IVec Cert.ReferenceIdeal.S1700000 32) (e : Fin 1700000) :
    Cert.ReferenceIdeal.Model.startCol a (ix2 e (0 : Fin 1)) = wrapWord (a (ix1 e)) := by
  unfold Cert.ReferenceIdeal.Model.startCol
  exact column_apply (by decide) _ _ e

/-! ## The kernel program's layer at an entry -/

/-- The kernel program's aggregate at `(r, n)`: over the edges into `r`, the sender's projected row at `n` times the
    sender's weight, added up from zero. -/
theorem kernel_aggregate_apply (dis : FVec Ideal Cert.KernelIdeal.S100000 .f32) (row col : IVec Cert.KernelIdeal.S1700000 32)
    (hp : FVec Ideal Cert.KernelIdeal.S100000x128 .f32) (r : Fin 100000) (n : Fin 128) :
    Cert.KernelIdeal.Model.aggregate dis row col hp (ix2 r n)
      = 0 + ∑ e ∈ edgesInto col r, hp (ix2 (nodeAt row e) n) * dis (ix1 (nodeAt row e)) := by
  unfold Cert.KernelIdeal.Model.aggregate
  refine (scatterAdd_apply Cert.KernelIdeal.scatter_S100000x128_S1700000x1_S1700000x128_1_0_0_1.wf _ _ _ (ix2 r n)).trans
    (add_sum_filter_congr (zeros_apply _ _) (fun e => ?_) (fun e _ => ?_))
  · exact Iff.of_eq (congrArg (fun w : BitVec 32 => w.toInt = (r.val : ℤ)) (column_apply (by decide) _ col e))
  · refine (widen_gather_round_apply _ _ _ _ (ix2 e n)).trans
      ((Cert.Gcn.rowGather_apply Cert.KernelIdeal.gather_S100000x128_S1700000x1_S1700000x128_1_0_n_n_0_1_1128.wf _ _ (ix2 e n)).trans
        ((mulf_apply _ _ _).trans ?_))
    have hs : Cert.Gcn.nodeOf (Cert.KernelIdeal.Model.startCol row (ix2 e (0 : Fin 1))) = nodeAt row e :=
      congrArg Cert.Gcn.nodeOf (kernel_startCol_apply row e)
    show hp (ix2 (Cert.Gcn.nodeOf (Cert.KernelIdeal.Model.startCol row (ix2 e (0 : Fin 1)))) n)
        * broadcastInDim _ _ _ (broadcastInDim _ _ _ dis) (ix2 (Cert.Gcn.nodeOf (Cert.KernelIdeal.Model.startCol row (ix2 e (0 : Fin 1)))) n)
        = hp (ix2 (nodeAt row e) n) * dis (ix1 (nodeAt row e))
    rw [hs]
    exact mul_congr rfl ((columnRepeat_apply (by decide) _ _ _ n).trans (column_apply (by decide) _ dis _))

/-- The kernel program's layer at `(r, n)`. -/
theorem kernel_layer_apply (dis : FVec Ideal Cert.KernelIdeal.S100000 .f32) (row col : IVec Cert.KernelIdeal.S1700000 32)
    (hp : FVec Ideal Cert.KernelIdeal.S100000x128 .f32) (b : FVec Ideal Cert.KernelIdeal.S128 .f32) (r : Fin 100000) (n : Fin 128) :
    Cert.KernelIdeal.Model.layer dis row col hp b (ix2 r n)
      = max ((0 + ∑ e ∈ edgesInto col r, hp (ix2 (nodeAt row e) n) * dis (ix1 (nodeAt row e))) * dis (ix1 r) + b (ix1 n)) 0 := by
  unfold Cert.KernelIdeal.Model.layer
  show max (Cert.KernelIdeal.Model.aggregate dis row col hp (ix2 r n) * shapeCast _ dis _ (ix2 r (0 : Fin 1))
      + shapeCast _ b _ (ix2 (0 : Fin 1) n)) 0 = _
  exact max_zero_congr (add_congr (mul_congr (kernel_aggregate_apply dis row col hp r n) (asColumn_apply _ dis r))
    (asRow_apply _ b n)) rfl

/-! ## The reference's layer at an entry -/

/-- The reference's layer at `(r, n)`: over the edges into `r`, the sender's projected row at `n` times the product of
    the two ends' weights, added up from zero; plus the bias, clamped at zero. -/
theorem ref_layer_apply (dis : FVec Ideal Cert.ReferenceIdeal.S100000 .f32) (row col : IVec Cert.ReferenceIdeal.S1700000 32)
    (hp : FVec Ideal Cert.ReferenceIdeal.S100000x128 .f32) (b : FVec Ideal Cert.ReferenceIdeal.S128 .f32) (r : Fin 100000) (n : Fin 128) :
    Cert.ReferenceIdeal.Model.layer dis row col hp b (ix2 r n)
      = max ((0 + ∑ e ∈ edgesInto col r, hp (ix2 (nodeAt row e) n) * (dis (ix1 (nodeAt row e)) * dis (ix1 (nodeAt col e))))
          + b (ix1 n)) 0 := by
  unfold Cert.ReferenceIdeal.Model.layer
  refine (maximumf_apply _ _ (ix2 r n)).trans (max_zero_congr ((addf_apply _ _ (ix2 r n)).trans (add_congr ?_ ?_)) (zeros_apply _ _))
  · refine (scatterAdd_apply Cert.ReferenceIdeal.scatter_S100000x128_S1700000x1_S1700000x128_1_0_0_1.wf _ _ _ (ix2 r n)).trans
      (add_sum_filter_congr (zeros_apply _ _) (fun e => ?_) (fun e _ => ?_))
    · exact Iff.of_eq (congrArg (fun w : BitVec 32 => w.toInt = (r.val : ℤ)) (column_apply (by decide) _ col e))
    · have hrow : Cert.Gcn.nodeOf (Cert.ReferenceIdeal.Model.startCol row (ix2 e (0 : Fin 1))) = nodeAt row e :=
        congrArg Cert.Gcn.nodeOf (ref_startCol_apply row e)
      have hcol : Cert.Gcn.nodeOf (Cert.ReferenceIdeal.Model.startCol col (ix2 e (0 : Fin 1))) = nodeAt col e :=
        congrArg Cert.Gcn.nodeOf (ref_startCol_apply col e)
      refine (mulf_apply _ _ (ix2 e n)).trans (mul_congr ?_ ?_)
      · exact (Cert.Gcn.rowGather_apply Cert.ReferenceIdeal.gather_S100000x128_S1700000x1_S1700000x128_1_0_n_n_0_1_1128.wf hp _ (ix2 e n)).trans
          (congrArg (fun s => hp (ix2 s n)) hrow)
      · refine (columnRepeat_apply (by decide) _ _ e n).trans ((column_apply (by decide) _ _ e).trans
          ((mulf_apply _ _ (ix1 e)).trans (mul_congr ?_ ?_)))
        · exact (Cert.Gcn.nodeGather_apply Cert.ReferenceIdeal.gather_S100000_S1700000x1_S1700000_n_0_n_n_0_1_1.wf dis _ (ix1 e)).trans
            (congrArg (fun s => dis (ix1 s)) hrow)
        · exact (Cert.Gcn.nodeGather_apply Cert.ReferenceIdeal.gather_S100000_S1700000x1_S1700000_n_0_n_n_0_1_1.wf dis _ (ix1 e)).trans
            (congrArg (fun s => dis (ix1 s)) hcol)
  · exact (rowRepeat_apply (by decide) _ _ r n).trans (row_apply (by decide) _ b n)

/-! ## The algebraic law -/

/-- With `x` a nonnegative real, scaling every summand by `w e · x` is scaling the sum of the `w e`-scaled summands
    by `x`: multiplication by `x` distributes over the sum, and multiplication is associative. -/
theorem scaled_sum {ι : Type*} (E : Finset ι) (f w v : ι → EReal) {x : EReal} (h0 : 0 ≤ x) (htop : x ≠ ⊤)
    (hv : ∀ e ∈ E, v e = x) (c : EReal) :
    max ((0 + ∑ e ∈ E, f e * w e) * x + c) 0 = max ((0 + ∑ e ∈ E, f e * (w e * v e)) + c) 0 := by
  rw [zero_add, zero_add, Cert.Gcn.sum_mul_of_nonneg_of_ne_top E _ h0 htop]
  refine congrArg (fun t => max (t + c) 0) (Finset.sum_congr rfl fun e he => ?_)
  rw [hv e he, mul_assoc]
/-! ## One layer of the kernel program is one layer of the reference -/

/-- With nonnegative real node weights, the two programs' layers agree entry by entry. -/
theorem layer_eq (dis : FVec Ideal Cert.ReferenceIdeal.S100000 .f32) (hdis : ∀ i, 0 ≤ dis i ∧ dis i ≠ ⊤)
    (row col : IVec Cert.ReferenceIdeal.S1700000 32) (hp : FVec Ideal Cert.ReferenceIdeal.S100000x128 .f32)
    (b : FVec Ideal Cert.ReferenceIdeal.S128 .f32) :
    Cert.KernelIdeal.Model.layer dis row col hp b = Cert.ReferenceIdeal.Model.layer dis row col hp b := by
  funext i
  obtain ⟨r, n, rfl⟩ : ∃ (r : Fin 100000) (n : Fin 128), i = ix2 r n := ⟨i 0, i 1, eq_ix2 i⟩
  refine (kernel_layer_apply dis row col hp b r n).trans (Eq.trans ?_ (ref_layer_apply dis row col hp b r n).symm)
  exact scaled_sum (edgesInto col r) (fun e => hp (ix2 (nodeAt row e) n)) (fun e => dis (ix1 (nodeAt row e)))
    (fun e => dis (ix1 (nodeAt col e))) (hdis (ix1 r)).1 (hdis (ix1 r)).2
    (fun e he => congrArg (fun s => dis (ix1 s)) (nodeAt_of_mem col r e he)) (b (ix1 n))

end Cert.Bridge

end
-- ==== Proof.ModelEq.lean ====
/-
  The two programs' host stretches, side by side.

  Both programs list the ends of the edges, count degrees and form the node weights with the same operations over
  the same shapes, so these four functions are equal by unfolding.  The programs differ in two places.  The
  reference's dense maps are `dot_general`s where the kernel program's are the specification's `linear` and `proj`;
  and a layer of the reference scales each message by the product of its two ends' weights before adding, where the
  kernel program scales rows by the sender's weight before they are sent and the finished sum by the receiver's.
  Given that the dense maps agree with the specification, and that the two layers agree for every weight vector
  whose entries are nonnegative and not `⊤` — the node weights are such a vector —, the two results are equal: the
  equation is carried from the inside out, the linear map first, then a projection and a layer, twice.
-/
import proofs.«113610_j1984274891289_2_alg».proof.Proof.KernelModel
import proofs.«113610_j1984274891289_2_alg».proof.Proof.RefModel
import proofs.«113610_j1984274891289_2_alg».proof.Proof.Spec

noncomputable section

namespace Cert.Bridge

open Idealize.ShloMosaic

/-- The sending ends of the edges are listed by the same operations in both programs. -/
theorem rowEnds_eq : Cert.KernelIdeal.Model.rowEnds = Cert.ReferenceIdeal.Model.rowEnds := rfl

/-- So are the receiving ends, -/
theorem colEnds_eq : Cert.KernelIdeal.Model.colEnds = Cert.ReferenceIdeal.Model.colEnds := rfl

/-- the degrees, -/
theorem degree_eq : Cert.KernelIdeal.Model.degree = Cert.ReferenceIdeal.Model.degree := rfl

/-- and the node weights. -/
theorem weight_eq : Cert.KernelIdeal.Model.weight = Cert.ReferenceIdeal.Model.weight := rfl

/-- The two programs' results agree, given: the two layers agree at every weight vector with nonnegative entries
    other than `⊤` (`hlayer`), the reference's projection and linear map are the specification's (`hproj`, `hlin`), and
    the node weights are such a vector (`hw`). -/
theorem result_eq_of
    (hlayer : ∀ (dis : FVec Ideal Cert.ReferenceIdeal.S100000 .f32), (∀ i, 0 ≤ dis i ∧ dis i ≠ ⊤) →
      ∀ (row col : IVec Cert.ReferenceIdeal.S1700000 32) (hp : FVec Ideal Cert.ReferenceIdeal.S100000x128 .f32) (b : FVec Ideal Cert.ReferenceIdeal.S128 .f32),
        Cert.KernelIdeal.Model.layer dis row col hp b = Cert.ReferenceIdeal.Model.layer dis row col hp b)
    (hproj : ∀ (h : FVec Ideal Cert.ReferenceIdeal.S100000x128 .f32) (W : FVec Ideal Cert.ReferenceIdeal.S128x128 .f32),
      Host.dotGeneral Cert.ReferenceIdeal.dot_S100000x128_S128x128_S100000x128_1_0_0_1_n_n none h W = Cert.Gcn.proj h W)
    (hlin : ∀ (x0 : FVec Ideal Cert.ReferenceIdeal.S100000x32 .f32) (x3 : FVec Ideal Cert.ReferenceIdeal.S32x128 .f32) (x4 : FVec Ideal Cert.ReferenceIdeal.S128 .f32),
      Cert.ReferenceIdeal.Model.features x0 x3 x4 = Cert.Gcn.linear x0 x3 (shapeCast Cert.KernelIdeal.S1x128 x4 Cert.KernelIdeal.Gen.shapeCasts_S128_S1x128))
    (hw : ∀ (x1 : IVec Cert.ReferenceIdeal.S2x1600000 32) i, 0 ≤ Cert.ReferenceIdeal.Model.weight x1 i ∧ Cert.ReferenceIdeal.Model.weight x1 i ≠ ⊤)
    (x0 : FVec Ideal Cert.KernelIdeal.S100000x32 .f32) (x1 : IVec Cert.KernelIdeal.S2x1600000 32) (x3 : FVec Ideal Cert.KernelIdeal.S32x128 .f32) (x4 : FVec Ideal Cert.KernelIdeal.S128 .f32)
    (x7 : FVec Ideal Cert.KernelIdeal.S128x128 .f32) (x8 : FVec Ideal Cert.KernelIdeal.S128 .f32) (x9 : FVec Ideal Cert.KernelIdeal.S128x128 .f32) (x10 : FVec Ideal Cert.KernelIdeal.S128 .f32) :
    Cert.KernelIdeal.Model.result x0 x1 x3 x4 x7 x8 x9 x10 = Cert.ReferenceIdeal.Model.result x0 x1 x3 x4 x7 x8 x9 x10 := by
  unfold Cert.KernelIdeal.Model.result Cert.ReferenceIdeal.Model.result
  rw [rowEnds_eq, colEnds_eq, weight_eq, hlin x0 x3 x4, hproj, hproj,
    hlayer (Cert.ReferenceIdeal.Model.weight x1) (hw x1), hlayer (Cert.ReferenceIdeal.Model.weight x1) (hw x1)]

end Cert.Bridge

end
-- ==== Proof.lean ====
/-
  Two graph-convolution layers on 100000 nodes and 1700000 edge ends, computed two ways, agree over the
  extended reals.

  Every node `j` carries a weight `d j`, the inverse square root of its degree (raised to at least one): a
  nonnegative real number, whatever the edge list holds.  A layer sends row `s` of `h · W` along every edge
  `s → j`, scaled by `d s · d j`; node `j` adds what it receives, adds a bias and clamps at zero.  The reference
  scales each message by the product `d s · d j` and then adds.  The kernel program scales row `s` by `d s` before
  it is sent, adds the messages up, and multiplies the finished sum by `d j` inside its last kernel.  Since
  `d j` is a nonnegative real, multiplication by it distributes over the sum even when summands are infinite
  (Proof/Spec.lean `sum_mul_of_nonneg_of_ne_top`), so the two layers agree (Proof/LayerLaw.lean), and so do
  the two programs (Proof/ModelEq.lean).  The precondition (finite inputs) is never needed.

  What each program's run ends at: the kernel program's five regions are dense whole-array functions of the
  arrays they find (Proof/Region0.lean … Region4.lean), the host stretches between them are read off the run
  (Proof/KernelRun.lean, Proof/KernelValue.lean); the reference's run ends at its composed term
  (Proof/RefRun.lean), which is the reference model of its arguments (Proof/RefValue.lean).  The edge ends index
  by 32-bit words: a gather reads a word signed and clamps it into the node range, a scatter-add drops an
  update whose word is outside it (Proof/Index.lean); an update that lands at node `j` therefore has `j` as its
  receiving end on both sides.  No rewrite separates the kernel from its idealization, so `preserves` is trivial.
-/
import proofs.«113610_j1984274891289_2_alg».proof.Defs
import proofs.«113610_j1984274891289_2_alg».proof.Proof.Gen.Kernel
import proofs.«113610_j1984274891289_2_alg».proof.Proof.Gen.Kernel.Skeleton
import proofs.«113610_j1984274891289_2_alg».proof.Proof.Gen.Kernel.Launch
import proofs.«113610_j1984274891289_2_alg».proof.Proof.Gen.Kernel.Points
import proofs.«113610_j1984274891289_2_alg».proof.Proof.Gen.Kernel.Frame
import proofs.«113610_j1984274891289_2_alg».proof.Proof.Gen.KernelIdeal
import proofs.«113610_j1984274891289_2_alg».proof.Proof.Gen.KernelIdeal.Skeleton
import proofs.«113610_j1984274891289_2_alg».proof.Proof.Gen.KernelIdeal.Launch
import proofs.«113610_j1984274891289_2_alg».proof.Proof.Gen.KernelIdeal.Points
import proofs.«113610_j1984274891289_2_alg».proof.Proof.Gen.KernelIdeal.Frame
import proofs.«113610_j1984274891289_2_alg».proof.Proof.Gen.ReferenceIdeal
import proofs.«113610_j1984274891289_2_alg».proof.Proof.Gen.Pre_finite_inputs
import proofs.«113610_j1984274891289_2_alg».proof.Proof.Spec
import proofs.«113610_j1984274891289_2_alg».proof.Proof.Index
import proofs.«113610_j1984274891289_2_alg».proof.Proof.Region0
import proofs.«113610_j1984274891289_2_alg».proof.Proof.Region1
import proofs.«113610_j1984274891289_2_alg».proof.Proof.Region2
import proofs.«113610_j1984274891289_2_alg».proof.Proof.Region3
import proofs.«113610_j1984274891289_2_alg».proof.Proof.Region4
import proofs.«113610_j1984274891289_2_alg».proof.Proof.KernelRun
import proofs.«113610_j1984274891289_2_alg».proof.Proof.KernelModel
import proofs.«113610_j1984274891289_2_alg».proof.Proof.KernelValue
import proofs.«113610_j1984274891289_2_alg».proof.Proof.RefRun
import proofs.«113610_j1984274891289_2_alg».proof.Proof.RefModel
import proofs.«113610_j1984274891289_2_alg».proof.Proof.RefValue
import proofs.«113610_j1984274891289_2_alg».proof.Proof.RefDense
import proofs.«113610_j1984274891289_2_alg».proof.Proof.LayerLaw
import proofs.«113610_j1984274891289_2_alg».proof.Proof.ModelEq
import Idealize.ShloMosaic.Adequacy
import Idealize.ShloMosaic.Init

noncomputable section

namespace Cert.Proof

open Idealize.ShloMosaic Idealize.SL.Sem

/-- The two programs compute one function of their arguments. -/
theorem result_eq (x0 x1 x3 x4 x7 x8 x9 x10) :
    Cert.KernelIdeal.Model.result x0 x1 x3 x4 x7 x8 x9 x10 = Cert.ReferenceIdeal.Model.result x0 x1 x3 x4 x7 x8 x9 x10 :=
  Cert.Bridge.result_eq_of Cert.Bridge.layer_eq Cert.ReferenceIdeal.Dense.dotGeneral_proj
    (fun x0 x3 x4 => Cert.ReferenceIdeal.Dense.features_linear x0 x3 x4 _)
    (fun x1 i => Cert.ReferenceIdeal.Dense.weight_bound _ _ i) x0 x1 x3 x4 x7 x8 x9 x10

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end at the kernel model's `result` of the arguments. -/
theorem algebraic : Cert.algebraic_KernelIdeal_ReferenceIdeal := by
  intro m ρ m' ρ' _ hagree
  refine ⟨fun c => Cert.KernelIdeal.Model.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.RunValue.W10_result m ρ c
          Cert.KernelIdeal.RegionValue.final0 Cert.KernelIdeal.RegionValue.final1 Cert.KernelIdeal.RegionValue.final2
          Cert.KernelIdeal.RegionValue.final3 Cert.KernelIdeal.RegionValue.final4), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Model.res_eq, (hagree c).1, (hagree c).2.1, (hagree c).2.2.2.1, (hagree c).2.2.2.2.1,
      (hagree c).2.2.2.2.2.2.2.1, (hagree c).2.2.2.2.2.2.2.2.1, (hagree c).2.2.2.2.2.2.2.2.2.1, (hagree c).2.2.2.2.2.2.2.2.2.2]
    exact (result_eq _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
